-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x4096 : Shape := ⟨2, ![16384, 4096]⟩
abbrev S4096x4096 : Shape := ⟨2, ![4096, 4096]⟩
abbrev S4096 : Shape := ⟨1, ![4096]⟩
abbrev S_ : Shape := ⟨0, ![]⟩

class Facts : Prop where
  bcast_S_S16384x4096 : S_.BroadcastsInDim S16384x4096 (![] : Fin 0 → Fin S16384x4096.rank)
  reducesTo_S16384x4096_S_d0_1 : S16384x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S16384x4096 .f32) (main_arg1 : FVec F S4096x4096 .f32) (main_arg2 : FVec F S4096 .f32) : IVec S_ 1 :=
  let main_v0 : FVec F S16384x4096 .f32 := Host.absf main_arg0
  let main_cst : FVec F S_ .f32 := constant S_ .f32 0x7F800000#32
  let main_v1 : FVec F S16384x4096 .f32 := broadcastInDim S16384x4096 ![] bcast_S_S16384x4096 main_cst
  let main_v2 : IVec S16384x4096 1 := cmpf .olt main_v0 main_v1
  let main_c : IVec S_ 1 := constantI S_ 1 1#1
  let main_v3 : IVec S_ 1 := (fun x v => Host.reduce IntOp.andi x v reducesTo_S16384x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S16384x4096 : Shape := ⟨2, ![16384, 4096]⟩
abbrev S4096x4096 : Shape := ⟨2, ![4096, 4096]⟩
abbrev S4096 : Shape := ⟨1, ![4096]⟩
abbrev S1x4096 : Shape := ⟨2, ![1, 4096]⟩
abbrev S512x4096 : Shape := ⟨2, ![512, 4096]⟩
abbrev S4096x512 : Shape := ⟨2, ![4096, 512]⟩
abbrev S512x512 : Shape := ⟨2, ![512, 512]⟩
abbrev S512 : Shape := ⟨1, ![512]⟩
abbrev S512x1 : Shape := ⟨2, ![512, 1]⟩

abbrev nBuf : Space → Nat
  | .hbm => 6
  | .vmem => 7
  | .smem => 0
  | _ => 0

abbrev bufTy : (tb : Table) → Fin (tcTables nBuf tb) → BufTy
  | .hbm, ⟨0, _⟩ => ⟨S16384x4096, .f32⟩
  | .hbm, ⟨1, _⟩ => ⟨S4096x4096, .f32⟩
  | .hbm, ⟨2, _⟩ => ⟨S4096, .f32⟩
  | .hbm, ⟨3, _⟩ => ⟨S4096x4096, .bf16⟩
  | .hbm, ⟨4, _⟩ => ⟨S1x4096, .f32⟩
  | .hbm, ⟨5, _⟩ => ⟨S16384x4096, .f32⟩
  | .local _ .vmem, ⟨0, _⟩ => ⟨S512x4096, .f32⟩
  | .local _ .vmem, ⟨1, _⟩ => ⟨S512x4096, .f32⟩
  | .local _ .vmem, ⟨2, _⟩ => ⟨S4096x512, .bf16⟩
  | .local _ .vmem, ⟨3, _⟩ => ⟨S4096x512, .bf16⟩
  | .local _ .vmem, ⟨4, _⟩ => ⟨S1x4096, .f32⟩
  | .local _ .vmem, ⟨5, _⟩ => ⟨S512x4096, .f32⟩
  | .local _ .vmem, ⟨6, _⟩ => ⟨S512x4096, .f32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![32, 8], ![false, false]⟩

def k0_off1 (i : grid0.Coords) : Fin 2 → Nat :=
  let c0 : Index := 0#32
  let arg1 : BitVec 32 := BitVec.ofNat 32 (i 1).val
  let c512_i32 : BitVec 32 := 512#32
  let v0 : BitVec 32 := Scalar.muli arg1 c512_i32
  let v1 : Index := Scalar.indexCast v0
  ![0, v1.toNat]
def k0_cond1 (i : grid0.Coords) : BitVec 1 :=
  let arg1 : BitVec 32 := BitVec.ofNat 32 (i 1).val
  let c0_i32 : BitVec 32 := 0#32
  let v7 : BitVec 1 := Scalar.cmpi .eq arg1 c0_i32
  let v8 : BitVec 32 := Scalar.extui v7
  let c0_i32_2 : BitVec 32 := 0#32
  let v9 : BitVec 1 := Scalar.cmpi .ne v8 c0_i32_2
  v9

def k0_cond2 (i : grid0.Coords) : BitVec 1 :=
  let arg1 : BitVec 32 := BitVec.ofNat 32 (i 1).val
  let c0_i32_3 : BitVec 32 := 0#32
  let v10 : BitVec 1 := Scalar.cmpi .sgt arg1 c0_i32_3
  let v11 : BitVec 32 := Scalar.extui v10
  let c0_i32_4 : BitVec 32 := 0#32
  let v12 : BitVec 1 := Scalar.cmpi .ne v11 c0_i32_4
  v12

def k0_cond3 (i : grid0.Coords) : BitVec 1 :=
  let arg1 : BitVec 32 := BitVec.ofNat 32 (i 1).val
  let c7_i32 : BitVec 32 := 7#32
  let v13 : BitVec 1 := Scalar.cmpi .eq arg1 c7_i32
  let v14 : BitVec 32 := Scalar.extui v13
  let c0_i32_5 : BitVec 32 := 0#32
  let v15 : BitVec 1 := Scalar.cmpi .ne v14 c0_i32_5
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S512x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  bitsLt_bf16_f32 : FTy.bits .bf16 < FTy.bits .f32
  shapeCasts_S4096_S1x4096 : S4096.ShapeCasts S1x4096
  h_S512x512 : 0 < S512x512.numel
  inb_S4096x512_S4096x512_0_0 : ∀ a, (![0, 0] : Fin 2 → Nat) a + S4096x512.size a ≤ S4096x512.size a
  h_S4096x512 : 0 < S4096x512.numel
  shapeCasts_S4096x512_S4096x512 : S4096x512.ShapeCasts S4096x512
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S512x4096 : S1x4096.Broadcasts S512x4096
  reduces_S512x4096_S512 : S512x4096.Reduces [1] S512
  shapeCasts_S512_S512x1 : S512.ShapeCasts S512x1
  broadcasts_S512x1_S512x4096 : S512x1.Broadcasts S512x4096
  dot_S512x512_S4096x512_S512x4096_1_1_0_0_n_n_wf : DotDims.WF S512x512 S4096x512 S512x4096 [1] [1] [0] [0] [] []
  hrank0 : 0 < grid0.rank
  k0_off1_inb : ∀ i : grid0.Coords, ∀ a, (k0_off1 i) a + S512x512.size a ≤ S512x4096.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S16384x4096.size a
  hwx0_0 : ∀ i : grid0.Coords, EltTy.bits .f32 = 32 ∨ (Rect.block (s := S16384x4096) S512x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x512.size a ≤ S4096x4096.size a
  hwx0_1 : ∀ i : grid0.Coords, EltTy.bits .bf16 = 32 ∨ (Rect.block (s := S4096x4096) S4096x512.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x4096.size a ≤ S1x4096.size a
  hwx0_2 : ∀ i : grid0.Coords, EltTy.bits .f32 = 32 ∨ (Rect.block (s := S1x4096) S1x4096.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x4096.size a ≤ S16384x4096.size a
  hwx0_3 : ∀ i : grid0.Coords, EltTy.bits .f32 = 32 ∨ (Rect.block (s := S16384x4096) S512x4096.size (cc0_transform_3 i) (hinb0_3 i)).WholeWords (EltTy.packing .f32)

variable [Facts₀]

def dot_S512x512_S4096x512_S512x4096_1_1_0_0_n_n : DotDims S512x512 S4096x512 S512x4096 where
  lhsContracting := [1]
  rhsContracting := [1]
  lhsNonContracting := [0]
  rhsNonContracting := [0]
  lhsBatch := []
  rhsBatch := []
  wf := dot_S512x512_S4096x512_S512x4096_1_1_0_0_n_n_wf

abbrev win0_0 : Pipeline.Window sig grid0 :=
  Pipeline.Window.ofSpec (Memref.whole main_arg0) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v0) S4096x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_call0_v1) S1x4096.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S512x4096.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond1 i == 1#1) && !(k0_cond2 i == 1#1) && !(k0_cond3 i == 1#1) | ⟨_ + 4, h⟩ => absurd h (Nat.not_lt.2 (Nat.le_add_left _ _))

class Facts : Prop extends Facts₀ where

variable [Facts]
-- ==== ReferenceIdeal.lean ====
abbrev S16384x4096 : Shape := ⟨2, ![16384, 4096]⟩
abbrev S4096x4096 : Shape := ⟨2, ![4096, 4096]⟩
abbrev S4096 : Shape := ⟨1, ![4096]⟩
abbrev S1x4096 : Shape := ⟨2, ![1, 4096]⟩
abbrev S_ : Shape := ⟨0, ![]⟩
abbrev S16384 : Shape := ⟨1, ![16384]⟩
abbrev S16384x1 : Shape := ⟨2, ![16384, 1]⟩

abbrev nBuf : Space → Nat
  | .hbm => 51
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S4096x4096, .f32⟩
  | .hbm, ⟨2, _⟩ => ⟨S4096, .f32⟩
  | .hbm, ⟨3, _⟩ => ⟨S16384x4096, .f32⟩
  | .hbm, ⟨4, _⟩ => ⟨S1x4096, .f32⟩
  | .hbm, ⟨5, _⟩ => ⟨S16384x4096, .f32⟩
  | .hbm, ⟨6, _⟩ => ⟨S16384x4096, .f32⟩
  | .hbm, ⟨7, _⟩ => ⟨S_, .f32⟩
  | .hbm, ⟨8, _⟩ => ⟨S16384x4096, .f32⟩
  | .hbm, ⟨9, _⟩ => ⟨S16384x4096, .f32⟩
  | .hbm, ⟨10, _⟩ => ⟨S16384x4096, .f32⟩
  | .hbm, ⟨11, _⟩ => ⟨S_, .f32⟩
  | .hbm, ⟨12, _⟩ => ⟨S16384, .f32⟩
  | .hbm, ⟨13, _⟩ => ⟨S16384x1, .f32⟩
  | .hbm, ⟨14, _⟩ => ⟨S_, .f32⟩
  | .hbm, ⟨15, _⟩ => ⟨S16384x1, .f32⟩
  | .hbm, ⟨16, _⟩ => ⟨S16384x1, .f32⟩
  | .hbm, ⟨17, _⟩ => ⟨S_, .i32⟩
  | .hbm, ⟨18, _⟩ => ⟨S_, .f32⟩
  | .hbm, ⟨19, _⟩ => ⟨S16384, .f32⟩
  | .hbm, ⟨20, _⟩ => ⟨S16384x1, .f32⟩
  | .hbm, ⟨21, _⟩ => ⟨S_, .f32⟩
  | .hbm, ⟨22, _⟩ => ⟨S16384x1, .f32⟩
  | .hbm, ⟨23, _⟩ => ⟨S16384x1, .f32⟩
  | .hbm, ⟨24, _⟩ => ⟨S16384x4096, .f32⟩
  | .hbm, ⟨25, _⟩ => ⟨S16384x4096, .f32⟩
  | .hbm, ⟨26, _⟩ => ⟨S16384x4096, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S16384, .f32⟩
  | .hbm, ⟨32, _⟩ => ⟨S16384x1, .f32⟩
  | .hbm, ⟨33, _⟩ => ⟨S16384x1, .f32⟩
  | .hbm, ⟨34, _⟩ => ⟨S16384x1, .f32⟩
  | .hbm, ⟨35, _⟩ => ⟨S_, .f32⟩
  | .hbm, ⟨36, _⟩ => ⟨S_, .i1⟩
  | .hbm, ⟨37, _⟩ => ⟨S_, .f32⟩
  | .hbm, ⟨38, _⟩ => ⟨S_, .f32⟩
  | .hbm, ⟨39, _⟩ => ⟨S16384x1, .f32⟩
  | .hbm, ⟨40, _⟩ => ⟨S16384x1, .f32⟩
  | .hbm, ⟨41, _⟩ => ⟨S16384x1, .f32⟩
  | .hbm, ⟨42, _⟩ => ⟨S16384x4096, .f32⟩
  | .hbm, ⟨43, _⟩ => ⟨S16384x4096, .f32⟩
  | .hbm, ⟨44, _⟩ => ⟨S16384x1, .f32⟩
  | .hbm, ⟨45, _⟩ => ⟨S_, .f32⟩
  | .hbm, ⟨46, _⟩ => ⟨S16384x1, .f32⟩
  | .hbm, ⟨47, _⟩ => ⟨S16384x1, .f32⟩
  | .hbm, ⟨48, _⟩ => ⟨S16384x1, .f32⟩
  | .hbm, ⟨49, _⟩ => ⟨S16384x4096, .f32⟩
  | .hbm, ⟨50, _⟩ => ⟨S16384x4096, .f32⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_call0_cst : Ref sig .tc := ⟨.hbm, 7, rfl⟩
abbrev main_call0_v0 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_c : Ref sig .tc := ⟨.hbm, 17, rfl⟩
abbrev main_call1_call0_cst : Ref sig .tc := ⟨.hbm, 18, rfl⟩
abbrev main_call1_call0_v0 : Ref sig .tc := ⟨.hbm, 19, rfl⟩
abbrev main_call1_call0_v1 : Ref sig .tc := ⟨.hbm, 20, rfl⟩
abbrev main_call1_call0_cst_0 : Ref sig .tc := ⟨.hbm, 21, rfl⟩
abbrev main_call1_call0_v2 : Ref sig .tc := ⟨.hbm, 22, rfl⟩
abbrev main_call1_call0_v3 : Ref sig .tc := ⟨.hbm, 23, rfl⟩
abbrev main_call1_call0_v4 : Ref sig .tc := ⟨.hbm, 24, rfl⟩
abbrev main_call1_call0_v5 : Ref sig .tc := ⟨.hbm, 25, rfl⟩
abbrev main_call1_call0_v6 : Ref sig .tc := ⟨.hbm, 26, rfl⟩
abbrev main_call1_call0_v7 : Ref sig .tc := ⟨.hbm, 27, rfl⟩
abbrev main_call1_call0_cst_1 : Ref sig .tc := ⟨.hbm, 28, rfl⟩
abbrev main_call1_call0_v8 : Ref sig .tc := ⟨.hbm, 29, rfl⟩
abbrev main_call1_call0_cst_2 : Ref sig .tc := ⟨.hbm, 30, rfl⟩
abbrev main_call1_call0_v9 : Ref sig .tc := ⟨.hbm, 31, rfl⟩
abbrev main_call1_call0_v10 : Ref sig .tc := ⟨.hbm, 32, rfl⟩
abbrev main_call1_call0_v11 : Ref sig .tc := ⟨.hbm, 33, rfl⟩
abbrev main_call1_call0_v12 : Ref sig .tc := ⟨.hbm, 34, rfl⟩
abbrev main_call1_call0_cst_3 : Ref sig .tc := ⟨.hbm, 35, rfl⟩
abbrev main_call1_call0_v13 : Ref sig .tc := ⟨.hbm, 36, rfl⟩
abbrev main_call1_call0_cst_4 : Ref sig .tc := ⟨.hbm, 37, rfl⟩
abbrev main_call1_call0_call0_v0 : Ref sig .tc := ⟨.hbm, 38, rfl⟩
abbrev main_call1_call0_call0_v1 : Ref sig .tc := ⟨.hbm, 39, rfl⟩
abbrev main_call1_v0 : Ref sig .tc := ⟨.hbm, 40, rfl⟩
abbrev main_v10 : Ref sig .tc := ⟨.hbm, 41, rfl⟩
abbrev main_v11 : Ref sig .tc := ⟨.hbm, 42, rfl⟩
abbrev main_v12 : Ref sig .tc := ⟨.hbm, 43, rfl⟩
abbrev main_v13 : Ref sig .tc := ⟨.hbm, 44, rfl⟩
abbrev main_cst_1 : Ref sig .tc := ⟨.hbm, 45, rfl⟩
abbrev main_v14 : Ref sig .tc := ⟨.hbm, 46, rfl⟩
abbrev main_v15 : Ref sig .tc := ⟨.hbm, 47, rfl⟩
abbrev main_v16 : Ref sig .tc := ⟨.hbm, 48, rfl⟩
abbrev main_v17 : Ref sig .tc := ⟨.hbm, 49, rfl⟩
abbrev main_v18 : Ref sig .tc := ⟨.hbm, 50, rfl⟩

abbrev nD : Nat := 1
abbrev τ : Topo := Topo.v7x

variable {F : FTy → Type} [FloatOps F]

class Facts₀ : Prop where
  bcast_S4096_S1x4096_1 : S4096.BroadcastsInDim S1x4096 (![1] : Fin 1 → Fin S1x4096.rank)
  bcast_S1x4096_S16384x4096_0_1 : S1x4096.BroadcastsInDim S16384x4096 (![0, 1] : Fin 2 → Fin S16384x4096.rank)
  bcast_S_S16384x4096 : S_.BroadcastsInDim S16384x4096 (![] : Fin 0 → Fin S16384x4096.rank)
  reducesTo_S16384x4096_S16384_d1 : S16384x4096.ReducesTo [1] S16384
  h_S_ : 0 < S_.numel
  bcast_S16384_S16384x1_0 : S16384.BroadcastsInDim S16384x1 (![0] : Fin 1 → Fin S16384x1.rank)
  bcast_S_S16384x1 : S_.BroadcastsInDim S16384x1 (![] : Fin 0 → Fin S16384x1.rank)
  bcast_S16384x1_S16384x4096_0_1 : S16384x1.BroadcastsInDim S16384x4096 (![0, 1] : Fin 2 → Fin S16384x4096.rank)
  dot_S16384x4096_S4096x4096_S16384x4096_1_1_0_0_n_n_wf : DotDims.WF S16384x4096 S4096x4096 S16384x4096 [1] [1] [0] [0] [] []

variable [Facts₀]

def dot_S16384x4096_S4096x4096_S16384x4096_1_1_0_0_n_n : DotDims S16384x4096 S4096x4096 S16384x4096 where
  lhsContracting := [1]
  rhsContracting := [1]
  lhsNonContracting := [0]
  rhsNonContracting := [0]
  lhsBatch := []
  rhsBatch := []
  wf := dot_S16384x4096_S4096x4096_S16384x4096_1_1_0_0_n_n_wf

class Facts : Prop extends Facts₀ where

variable [Facts]
-- ==== Proof.K.Conds.lean ====
/-
  Which of the body's three branches a grid point takes. The grid is 32 row blocks by 8 contraction blocks,
  walked row block by row block; point t works on contraction block k = t mod 8. The first branch (start the
  accumulator) is taken at k = 0, the second (add to it) at k > 0, the third (finish the row block) at k = 7.
-/
import proofs.«163720_g75763223101598_feedfinal_213_3_alg».proof.Proof.Gen.Kernel.Frame
import proofs.«163720_g75763223101598_feedfinal_213_3_alg».proof.Proof.Gen.Kernel.Skeleton

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The accumulator is started exactly at the points with k = 0. -/
theorem hcond1 : ∀ t : Fin cfg0.N, k0_cond1 (grid0.coords t) = 1#1 ↔ t.val % 8 = 0 :=
  (by decide +kernel : ∀ t : Fin grid0.N, k0_cond1 (grid0.coords t) = 1#1 ↔ t.val % 8 = 0)
/-- It is added to exactly at the points with k > 0. -/
theorem hcond2 : ∀ t : Fin cfg0.N, k0_cond2 (grid0.coords t) = 1#1 ↔ ¬ t.val % 8 = 0 :=
  (by decide +kernel : ∀ t : Fin grid0.N, k0_cond2 (grid0.coords t) = 1#1 ↔ ¬ t.val % 8 = 0)
/-- The row block is finished exactly at the points with k = 7. -/
theorem hcond3 : ∀ t : Fin cfg0.N, k0_cond3 (grid0.coords t) = 1#1 ↔ t.val % 8 = 7 :=
  (by decide +kernel : ∀ t : Fin grid0.N, k0_cond3 (grid0.coords t) = 1#1 ↔ t.val % 8 = 7)

/-- One staging buffer of the output window, through which its contents are stated (the choice does not matter). -/
abbrev VO : View sig .tc .vmem S512x4096 .f32 := (Memref.whole cc0_stg3_0 : Memref sig .tc .vmem S512x4096 .f32).view
/-- Each window's current staging memref at point t, as the pipeline passes it, and its wholeness. -/
abbrev ms0 (t : Fin cfg0.N) : Memref sig .tc .vmem S512x4096 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S4096x512 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x4096 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S512x4096 .f32 := win0_3.stage (cfg0.slots t 3)
abbrev hs3 (t : Fin cfg0.N) : (ms3 t).IsWhole := hstage0_3 ((cfg0.slots t 3).cast nbuf0_3)

end Cert.Kernel.Hand

end
-- ==== Proof.K.RunA.lean ====
/-
  The body at a point that STARTS a row block's accumulator (contraction block 0): it loads the 512×512 slice of
  the x block and the weight block, and stores their product over the whole output block; the other two branches
  are not taken. The list of stores the output's staging buffer ends with is found by running the body.
-/
import proofs.«163720_g75763223101598_feedfinal_213_3_alg».proof.Proof.K.Conds

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The stores the output block ends with at such a point, with the proof that the body runs: the three input
    buffers are handed back as found, the output buffer (whatever it held) with those stores written. -/
noncomputable def runA (c : Dev nD) (i : grid0.Coords) (arg2 : Memref sig .tc .vmem S512x4096 .f32) (harg2 : arg2.IsWhole) (arg3 : Memref sig .tc .vmem S4096x512 .bf16) (harg3 : arg3.IsWhole) (arg4 : Memref sig .tc .vmem S1x4096 .f32) (harg4 : arg4.IsWhole) (arg5 : Memref sig .tc .vmem S512x4096 .f32) (harg5 : arg5.IsWhole)
    (hc1 : k0_cond1 i = 1#1) (hc2 : ¬ k0_cond2 i = 1#1) (hc3 : ¬ k0_cond3 i = 1#1)
    (x0 : Vec F S512x4096 .f32) (x1 : Vec F S4096x512 .bf16) (x2 : Vec F S1x4096 .f32) :
    { L : List (View.Piece (Elt F) S512x4096 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d)
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L)) -∗ K ⟨⟩))
          ⊢ wp frame (wpE (defs₀ (F := F)) Variants.none c none) E (cc0__ff_body i arg2 harg2 arg3 harg3 arg4 harg4 arg5 harg5) K } := by
  refine ⟨?_, fun E K => ?run⟩
  case run =>
    simp only [cc0__ff_body_eq_skeleton]; unfold cc0__ff_body_skel
    unfold owns
    iintro ⟨⟨%f0, %hf0, H0⟩, ⟨%f1, %hf1, H1⟩, ⟨%f2, %hf2, H2⟩, ⟨%d3, %f3, -, H3⟩, Hk⟩
    obtain rfl := harg2.eq_unread hf0; obtain rfl := harg3.eq_unread hf1; obtain rfl := harg4.eq_unread hf2
    sl_exec (disch := first | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact H3

end Cert.Kernel.Hand

end
-- ==== Proof.K.RunB.lean ====
/-
  The body at a point in the MIDDLE of a row block (contraction block 0 < k < 7): it loads the running
  accumulator from the output block, adds the product of this point's x slice and weight block, and stores the
  sum over the whole output block; the first and third branches are not taken. The list of stores the output's
  staging buffer ends with is found by running the body.
-/
import proofs.«163720_g75763223101598_feedfinal_213_3_alg».proof.Proof.K.Conds

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- The stores the output block ends with at such a point, with the proof that the body runs: the three input
    buffers are handed back as found, the output buffer — holding the running accumulator xo — with those stores written. -/
noncomputable def runB (c : Dev nD) (i : grid0.Coords) (arg2 : Memref sig .tc .vmem S512x4096 .f32) (harg2 : arg2.IsWhole) (arg3 : Memref sig .tc .vmem S4096x512 .bf16) (harg3 : arg3.IsWhole) (arg4 : Memref sig .tc .vmem S1x4096 .f32) (harg4 : arg4.IsWhole) (arg5 : Memref sig .tc .vmem S512x4096 .f32) (harg5 : arg5.IsWhole)
    (hc1 : ¬ k0_cond1 i = 1#1) (hc2 : k0_cond2 i = 1#1) (hc3 : ¬ k0_cond3 i = 1#1)
    (x0 : Vec F S512x4096 .f32) (x1 : Vec F S4096x512 .bf16) (x2 : Vec F S1x4096 .f32) (xo : Vec F S512x4096 .f32) :
    { L : List (View.Piece (Elt F) S512x4096 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare xo
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L)) -∗ K ⟨⟩))
          ⊢ wp frame (wpE (defs₀ (F := F)) Variants.none c none) E (cc0__ff_body i arg2 harg2 arg3 harg3 arg4 harg4 arg5 harg5) K } := by
  refine ⟨?_, fun E K => ?run⟩
  case run =>
    simp only [cc0__ff_body_eq_skeleton]; unfold cc0__ff_body_skel
    unfold owns
    iintro ⟨⟨%f0, %hf0, H0⟩, ⟨%f1, %hf1, H1⟩, ⟨%f2, %hf2, H2⟩, ⟨%f3, %hf3, H3⟩, Hk⟩
    obtain rfl := harg2.eq_unread hf0; obtain rfl := harg3.eq_unread hf1; obtain rfl := harg4.eq_unread hf2
    obtain rfl := harg5.eq_unread hf3
    sl_exec (disch := first | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact H3

end Cert.Kernel.Hand

end
-- ==== Proof.K.RunC.lean ====
/-
  The body at the point that FINISHES a row block (contraction block 7): it adds this point's product to the
  accumulator and stores it, then reads the accumulator back, adds the bias row, rectifies, adds the x block,
  normalises each row by its mean and variance, and stores the result over the whole output block; the first
  branch is not taken. The list of stores the output's staging buffer ends with is found by running the body.
-/
import proofs.«163720_g75763223101598_feedfinal_213_3_alg».proof.Proof.K.Conds

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- The stores the output block ends with at such a point, with the proof that the body runs: the three input
    buffers are handed back as found, the output buffer — holding the running accumulator xo — with those stores written. -/
noncomputable def runC (c : Dev nD) (i : grid0.Coords) (arg2 : Memref sig .tc .vmem S512x4096 .f32) (harg2 : arg2.IsWhole) (arg3 : Memref sig .tc .vmem S4096x512 .bf16) (harg3 : arg3.IsWhole) (arg4 : Memref sig .tc .vmem S1x4096 .f32) (harg4 : arg4.IsWhole) (arg5 : Memref sig .tc .vmem S512x4096 .f32) (harg5 : arg5.IsWhole)
    (hc1 : ¬ k0_cond1 i = 1#1) (hc2 : k0_cond2 i = 1#1) (hc3 : k0_cond3 i = 1#1)
    (x0 : Vec F S512x4096 .f32) (x1 : Vec F S4096x512 .bf16) (x2 : Vec F S1x4096 .f32) (xo : Vec F S512x4096 .f32) :
    { L : List (View.Piece (Elt F) S512x4096 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare xo
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L)) -∗ K ⟨⟩))
          ⊢ wp frame (wpE (defs₀ (F := F)) Variants.none c none) E (cc0__ff_body i arg2 harg2 arg3 harg3 arg4 harg4 arg5 harg5) K } := by
  refine ⟨?_, fun E K => ?run⟩
  case run =>
    simp only [cc0__ff_body_eq_skeleton]; unfold cc0__ff_body_skel
    unfold owns
    iintro ⟨⟨%f0, %hf0, H0⟩, ⟨%f1, %hf1, H1⟩, ⟨%f2, %hf2, H2⟩, ⟨%f3, %hf3, H3⟩, Hk⟩
    obtain rfl := harg2.eq_unread hf0; obtain rfl := harg3.eq_unread hf1; obtain rfl := harg4.eq_unread hf2
    obtain rfl := harg5.eq_unread hf3
    sl_exec (disch := first | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact H3

end Cert.Kernel.Hand

end
-- ==== Proof.K.Outs.lean ====
/-
  What the output block's staging buffer holds after the body at each grid point, the pipeline's proof data, the
  body obligation and the run. After a point with k = 0 the buffer holds what that point's stores leave; after a
  point with k > 0, what the point's stores leave given the buffer as the point before left it (the buffer is not
  written back in between: it is written back only after the points with k = 7). The three input windows are
  only read, so their buffers hold their blocks of the argument arrays throughout.
-/
import proofs.«163720_g75763223101598_feedfinal_213_3_alg».proof.Proof.K.RunA
import proofs.«163720_g75763223101598_feedfinal_213_3_alg».proof.Proof.K.RunB
import proofs.«163720_g75763223101598_feedfinal_213_3_alg».proof.Proof.K.RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The branch conditions at a point, from k = t mod 8 -/

theorem cA1 (t : Fin cfg0.N) (h0 : t.val % 8 = 0) : k0_cond1 (grid0.coords t) = 1#1 := (hcond1 t).mpr h0
theorem cA2 (t : Fin cfg0.N) (h0 : t.val % 8 = 0) : ¬ k0_cond2 (grid0.coords t) = 1#1 := fun h => (hcond2 t).mp h h0
theorem cA3 (t : Fin cfg0.N) (h0 : t.val % 8 = 0) : ¬ k0_cond3 (grid0.coords t) = 1#1 := fun h => by
  have := (hcond3 t).mp h; omega
theorem cB1 (t : Fin cfg0.N) (h0 : ¬ t.val % 8 = 0) : ¬ k0_cond1 (grid0.coords t) = 1#1 := fun h => h0 ((hcond1 t).mp h)
theorem cB2 (t : Fin cfg0.N) (h0 : ¬ t.val % 8 = 0) : k0_cond2 (grid0.coords t) = 1#1 := (hcond2 t).mpr h0
theorem cB3 (t : Fin cfg0.N) (h7 : ¬ t.val % 8 = 7) : ¬ k0_cond3 (grid0.coords t) = 1#1 := fun h => h7 ((hcond3 t).mp h)
theorem cC3 (t : Fin cfg0.N) (h7 : t.val % 8 = 7) : k0_cond3 (grid0.coords t) = 1#1 := (hcond3 t).mpr h7

/-- The output window is stored into at every point (one of the first two branches is always taken). -/
theorem live3 : ∀ i : grid0.Coords, cfg0.idle 3 i = false := fun i => by
  have h : ∀ k : Fin 8, (!(Scalar.cmpi .ne (Scalar.extui (Scalar.cmpi .eq (BitVec.ofNat 32 k.val) 0#32)) 0#32 == 1#1)
      && !(Scalar.cmpi .ne (Scalar.extui (Scalar.cmpi .sgt (BitVec.ofNat 32 k.val) 0#32)) 0#32 == 1#1)
      && !(Scalar.cmpi .ne (Scalar.extui (Scalar.cmpi .eq (BitVec.ofNat 32 k.val) 7#32)) 0#32 == 1#1)) = false := by decide
  exact h (i 1)

/-! ## What each kind of point leaves in the output block -/

theorem coverA (c : Dev nD) (i : grid0.Coords) (arg2 : Memref sig .tc .vmem S512x4096 .f32) (harg2 : arg2.IsWhole) (arg3 : Memref sig .tc .vmem S4096x512 .bf16) (harg3 : arg3.IsWhole) (arg4 : Memref sig .tc .vmem S1x4096 .f32) (harg4 : arg4.IsWhole) (arg5 : Memref sig .tc .vmem S512x4096 .f32) (harg5 : arg5.IsWhole)
    (hc1 : k0_cond1 i = 1#1) (hc2 : ¬ k0_cond2 i = 1#1) (hc3 : ¬ k0_cond3 i = 1#1)
    (x0 : Vec F S512x4096 .f32) (x1 : Vec F S4096x512 .bf16) (x2 : Vec F S1x4096 .f32) (y : S512x4096.Idx) :
    ∃ pc ∈ (runA c i arg2 harg2 arg3 harg3 arg4 harg4 arg5 harg5 hc1 hc2 hc3 x0 x1 x2).1, y ∈ pc.1.set :=
  View.cover_of_tiledL (runA c i arg2 harg2 arg3 harg3 arg4 harg4 arg5 harg5 hc1 hc2 hc3 x0 x1 x2).1 S512x4096.size (by sl_kernel_rfl) y

/-- What a point with k = 0 leaves in the output block: its stores read back. -/
def outA (c : Dev nD) (i : grid0.Coords) (arg2 : Memref sig .tc .vmem S512x4096 .f32) (harg2 : arg2.IsWhole) (arg3 : Memref sig .tc .vmem S4096x512 .bf16) (harg3 : arg3.IsWhole) (arg4 : Memref sig .tc .vmem S1x4096 .f32) (harg4 : arg4.IsWhole) (arg5 : Memref sig .tc .vmem S512x4096 .f32) (harg5 : arg5.IsWhole)
    (hc1 : k0_cond1 i = 1#1) (hc2 : ¬ k0_cond2 i = 1#1) (hc3 : ¬ k0_cond3 i = 1#1)
    (x0 : Vec F S512x4096 .f32) (x1 : Vec F S4096x512 .bf16) (x2 : Vec F S1x4096 .f32) : Vec F S512x4096 .f32 :=
  VO.read (Elt F) (VO.writes (Elt F) VO.junk (runA c i arg2 harg2 arg3 harg3 arg4 harg4 arg5 harg5 hc1 hc2 hc3 x0 x1 x2).1)

theorem coverB (c : Dev nD) (i : grid0.Coords) (arg2 : Memref sig .tc .vmem S512x4096 .f32) (harg2 : arg2.IsWhole) (arg3 : Memref sig .tc .vmem S4096x512 .bf16) (harg3 : arg3.IsWhole) (arg4 : Memref sig .tc .vmem S1x4096 .f32) (harg4 : arg4.IsWhole) (arg5 : Memref sig .tc .vmem S512x4096 .f32) (harg5 : arg5.IsWhole)
    (hc1 : ¬ k0_cond1 i = 1#1) (hc2 : k0_cond2 i = 1#1) (hc3 : ¬ k0_cond3 i = 1#1)
    (x0 : Vec F S512x4096 .f32) (x1 : Vec F S4096x512 .bf16) (x2 : Vec F S1x4096 .f32) (xo : Vec F S512x4096 .f32) (y : S512x4096.Idx) :
    ∃ pc ∈ (runB c i arg2 harg2 arg3 harg3 arg4 harg4 arg5 harg5 hc1 hc2 hc3 x0 x1 x2 xo).1, y ∈ pc.1.set :=
  View.cover_of_tiledL (runB c i arg2 harg2 arg3 harg3 arg4 harg4 arg5 harg5 hc1 hc2 hc3 x0 x1 x2 xo).1 S512x4096.size (by sl_kernel_rfl) y

/-- What a point with 0 < k < 7 leaves in the output block, given what it found there. -/
def outB (c : Dev nD) (i : grid0.Coords) (arg2 : Memref sig .tc .vmem S512x4096 .f32) (harg2 : arg2.IsWhole) (arg3 : Memref sig .tc .vmem S4096x512 .bf16) (harg3 : arg3.IsWhole) (arg4 : Memref sig .tc .vmem S1x4096 .f32) (harg4 : arg4.IsWhole) (arg5 : Memref sig .tc .vmem S512x4096 .f32) (harg5 : arg5.IsWhole)
    (hc1 : ¬ k0_cond1 i = 1#1) (hc2 : k0_cond2 i = 1#1) (hc3 : ¬ k0_cond3 i = 1#1)
    (x0 : Vec F S512x4096 .f32) (x1 : Vec F S4096x512 .bf16) (x2 : Vec F S1x4096 .f32) (xo : Vec F S512x4096 .f32) : Vec F S512x4096 .f32 :=
  VO.read (Elt F) (VO.writes (Elt F) VO.junk (runB c i arg2 harg2 arg3 harg3 arg4 harg4 arg5 harg5 hc1 hc2 hc3 x0 x1 x2 xo).1)

theorem coverC (c : Dev nD) (i : grid0.Coords) (arg2 : Memref sig .tc .vmem S512x4096 .f32) (harg2 : arg2.IsWhole) (arg3 : Memref sig .tc .vmem S4096x512 .bf16) (harg3 : arg3.IsWhole) (arg4 : Memref sig .tc .vmem S1x4096 .f32) (harg4 : arg4.IsWhole) (arg5 : Memref sig .tc .vmem S512x4096 .f32) (harg5 : arg5.IsWhole)
    (hc1 : ¬ k0_cond1 i = 1#1) (hc2 : k0_cond2 i = 1#1) (hc3 : k0_cond3 i = 1#1)
    (x0 : Vec F S512x4096 .f32) (x1 : Vec F S4096x512 .bf16) (x2 : Vec F S1x4096 .f32) (xo : Vec F S512x4096 .f32) (y : S512x4096.Idx) :
    ∃ pc ∈ (runC c i arg2 harg2 arg3 harg3 arg4 harg4 arg5 harg5 hc1 hc2 hc3 x0 x1 x2 xo).1, y ∈ pc.1.set :=
  View.cover_of_tiledL (runC c i arg2 harg2 arg3 harg3 arg4 harg4 arg5 harg5 hc1 hc2 hc3 x0 x1 x2 xo).1 S512x4096.size (by sl_kernel_rfl) y

/-- What the point with k = 7 leaves in the output block, given what it found there. -/
def outC (c : Dev nD) (i : grid0.Coords) (arg2 : Memref sig .tc .vmem S512x4096 .f32) (harg2 : arg2.IsWhole) (arg3 : Memref sig .tc .vmem S4096x512 .bf16) (harg3 : arg3.IsWhole) (arg4 : Memref sig .tc .vmem S1x4096 .f32) (harg4 : arg4.IsWhole) (arg5 : Memref sig .tc .vmem S512x4096 .f32) (harg5 : arg5.IsWhole)
    (hc1 : ¬ k0_cond1 i = 1#1) (hc2 : k0_cond2 i = 1#1) (hc3 : k0_cond3 i = 1#1)
    (x0 : Vec F S512x4096 .f32) (x1 : Vec F S4096x512 .bf16) (x2 : Vec F S1x4096 .f32) (xo : Vec F S512x4096 .f32) : Vec F S512x4096 .f32 :=
  VO.read (Elt F) (VO.writes (Elt F) VO.junk (runC c i arg2 harg2 arg3 harg3 arg4 harg4 arg5 harg5 hc1 hc2 hc3 x0 x1 x2 xo).1)

/-! ## The output block point by point -/

/-- What the output block's staging buffer holds after the body at position n of the walk: started afresh where
    k = 0, otherwise built on what position n − 1 left. -/
def outsAt (c : Dev nD) : (n : ℕ) → n < cfg0.N → Vec F S512x4096 .f32
  | 0, hn => outA c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (cA1 ⟨0, hn⟩ (Nat.zero_mod _)) (cA2 ⟨0, hn⟩ (Nat.zero_mod _)) (cA3 ⟨0, hn⟩ (Nat.zero_mod _)) (iblk m c 0 ⟨0, hn⟩) (iblk m c 1 ⟨0, hn⟩) (iblk m c 2 ⟨0, hn⟩)
  | n + 1, hn =>
    if h0 : (n + 1) % 8 = 0 then
      outA c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (cA1 ⟨n + 1, hn⟩ h0) (cA2 ⟨n + 1, hn⟩ h0) (cA3 ⟨n + 1, hn⟩ h0) (iblk m c 0 ⟨n + 1, hn⟩) (iblk m c 1 ⟨n + 1, hn⟩) (iblk m c 2 ⟨n + 1, hn⟩)
    else if h7 : (n + 1) % 8 = 7 then
      outC c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (cB1 ⟨n + 1, hn⟩ h0) (cB2 ⟨n + 1, hn⟩ h0) (cC3 ⟨n + 1, hn⟩ h7) (iblk m c 0 ⟨n + 1, hn⟩) (iblk m c 1 ⟨n + 1, hn⟩) (iblk m c 2 ⟨n + 1, hn⟩) (outsAt c n (Nat.lt_of_succ_lt hn))
    else
      outB c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (cB1 ⟨n + 1, hn⟩ h0) (cB2 ⟨n + 1, hn⟩ h0) (cB3 ⟨n + 1, hn⟩ h7) (iblk m c 0 ⟨n + 1, hn⟩) (iblk m c 1 ⟨n + 1, hn⟩) (iblk m c 2 ⟨n + 1, hn⟩) (outsAt c n (Nat.lt_of_succ_lt hn))

theorem outsAt_A (c : Dev nD) (t : Fin cfg0.N) (h0 : t.val % 8 = 0) :
    outsAt m c t.val t.isLt = outA c (grid0.coords t) (ms0 t) (hs0 t) (ms1 t) (hs1 t) (ms2 t) (hs2 t) (ms3 t) (hs3 t) (cA1 t h0) (cA2 t h0) (cA3 t h0) (iblk m c 0 t) (iblk m c 1 t) (iblk m c 2 t) := by
  obtain ⟨n, hn⟩ := t
  cases n with
  | zero => exact rfl
  | succ n => exact (dif_pos h0).trans rfl

theorem outsAt_B (c : Dev nD) (t : Fin cfg0.N) (h0 : ¬ t.val % 8 = 0) (h7 : ¬ t.val % 8 = 7) :
    outsAt m c t.val t.isLt = outB c (grid0.coords t) (ms0 t) (hs0 t) (ms1 t) (hs1 t) (ms2 t) (hs2 t) (ms3 t) (hs3 t) (cB1 t h0) (cB2 t h0) (cB3 t h7) (iblk m c 0 t) (iblk m c 1 t) (iblk m c 2 t)
      (outsAt m c (t.val - 1) (Nat.lt_of_le_of_lt (Nat.sub_le _ _) t.isLt)) := by
  obtain ⟨n, hn⟩ := t
  cases n with
  | zero => exact (by exfalso; exact absurd (Nat.zero_mod _) h0)
  | succ n => exact (dif_neg h0).trans ((dif_neg h7).trans rfl)

theorem outsAt_C (c : Dev nD) (t : Fin cfg0.N) (h0 : ¬ t.val % 8 = 0) (h7 : t.val % 8 = 7) :
    outsAt m c t.val t.isLt = outC c (grid0.coords t) (ms0 t) (hs0 t) (ms1 t) (hs1 t) (ms2 t) (hs2 t) (ms3 t) (hs3 t) (cB1 t h0) (cB2 t h0) (cC3 t h7) (iblk m c 0 t) (iblk m c 1 t) (iblk m c 2 t)
      (outsAt m c (t.val - 1) (Nat.lt_of_le_of_lt (Nat.sub_le _ _) t.isLt)) := by
  obtain ⟨n, hn⟩ := t
  cases n with
  | zero => exact (by exfalso; exact absurd (Nat.zero_mod _) h0)
  | succ n => exact (dif_neg h0).trans ((dif_pos h7).trans rfl)

/-! ## The pipeline's proof data -/

/-- The arrays as the region finds them; after the body at point t each input's buffer at its block and the
    output's at outsAt; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (outsAt m c t.val t.isLt)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = (outsAt m c t.val t.isLt) := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d

/-- At a point with k > 0 the output's staging buffer holds what the body left at the point before: the buffer
    is written back only after the points with k = 7, and the window is stored into at every point. -/
theorem before_3 (c : Dev nD) (t : Fin cfg0.N) (h0 : ¬ t.val % 8 = 0) (d) :
    (dats m 0 c).before 3 t d = (outsAt m c (t.val - 1) (Nat.lt_of_le_of_lt (Nat.sub_le _ _) t.isLt)) := by
  have hN : t.val < 256 := lt_of_lt_of_eq t.isLt (show cfg0.N = 256 from N_0)
  rw [Dat.before_out_kept _ 3 rfl t (by omega) (Bool.eq_false_iff.mpr fun h => by have := (flush0_3 _).mp h; dsimp only at this; omega)
    live3 (fun _ _ => rfl)]
  dsimp only [dats]

end Cert.Kernel.Hand

end
-- ==== Proof.K.Body.lean ====
/-
  The body obligation at every grid point, the pipeline's run, and the frame: at each point the three input
  buffers hold their blocks, the point's k = t mod 8 selects which branches run, the output buffer (at k > 0) holds
  what the point before left, and the body's run for that kind of point applies. The run of the whole pipeline
  then ends with every argument array unchanged.
-/
import proofs.«163720_g75763223101598_feedfinal_213_3_alg».proof.Proof.K.Outs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body is called with at point t, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t))

set_option maxHeartbeats 1600000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2]
  rw [show (dats m 0 c).Φ t.succ = (dats m 0 c).Φ t.castSucc from rfl,
    show (dats m 0 c).owesAt () t.succ = (dats m 0 c).owesAt () t.castSucc from rfl,
    after_0, after_1, after_2, after_3]
  by_cases h0 : t.val % 8 = 0
  · rw [outsAt_A m c t h0]
    unfold outA
    iintro ⟨HΦ, Ho, ⟨%d0, H0⟩, ⟨%d1, H1⟩, ⟨%d2, H2⟩, ⟨%d3, H3⟩⟩
    iapply ((runA c (grid0.coords t) _ _ _ _ _ _ _ _ (cA1 t h0) (cA2 t h0) (cA3 t h0) (iblk m c 0 t) (iblk m c 1 t) (iblk m c 2 t)).2 Set.univ _)
    isplitl [H0]; · iexact H0
    isplitl [H1]; · iexact H1
    isplitl [H2]; · iexact H2
    isplitl [H3]; · iexists _; iexact H3
    iintro ⟨H0, H1, H2, ⟨%e3, H3⟩⟩
    isplitl [HΦ]; · iexact HΦ
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (coverA c _ _ _ _ _ _ _ _ _ _ _ _ _ _ _)
  · simp only [before_3 m c t h0]
    by_cases h7 : t.val % 8 = 7
    · rw [outsAt_C m c t h0 h7]
      unfold outC
      iintro ⟨HΦ, Ho, ⟨%d0, H0⟩, ⟨%d1, H1⟩, ⟨%d2, H2⟩, ⟨%d3, H3⟩⟩
      iapply ((runC c (grid0.coords t) _ _ _ _ _ _ _ _ (cB1 t h0) (cB2 t h0) (cC3 t h7) (iblk m c 0 t) (iblk m c 1 t) (iblk m c 2 t) _).2 Set.univ _)
      isplitl [H0]; · iexact H0
      isplitl [H1]; · iexact H1
      isplitl [H2]; · iexact H2
      isplitl [H3]; · iexact H3
      iintro ⟨H0, H1, H2, ⟨%e3, H3⟩⟩
      isplitl [HΦ]; · iexact HΦ
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (coverC c _ _ _ _ _ _ _ _ _ _ _ _ _ _ _ _)
    · rw [outsAt_B m c t h0 h7]
      unfold outB
      iintro ⟨HΦ, Ho, ⟨%d0, H0⟩, ⟨%d1, H1⟩, ⟨%d2, H2⟩, ⟨%d3, H3⟩⟩
      iapply ((runB c (grid0.coords t) _ _ _ _ _ _ _ _ (cB1 t h0) (cB2 t h0) (cB3 t h7) (iblk m c 0 t) (iblk m c 1 t) (iblk m c 2 t) _).2 Set.univ _)
      isplitl [H0]; · iexact H0
      isplitl [H1]; · iexact H1
      isplitl [H2]; · iexact H2
      isplitl [H3]; · iexact H3
      iintro ⟨H0, H1, H2, ⟨%e3, H3⟩⟩
      isplitl [HΦ]; · iexact HΦ
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (coverB c _ _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  rw [live3 (cfg0.grid.coords t)]
  exact sound_body m c t

set_option backward.isDefEq.respectTransparency.types false in
/-- Every weakly fair execution of the program terminates, and every final state has every array of the pipeline
    at what the library computes from the proof data and every other buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the program runs to the end, faults nowhere, and leaves its three argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.Kernel.Hand

end
-- ==== Proof.KI.Conds.lean ====
/-
  Which of the body's three branches a grid point takes. The grid is 32 row blocks by 8 contraction blocks,
  walked row block by row block; point t works on contraction block k = t mod 8. The first branch (start the
  accumulator) is taken at k = 0, the second (add to it) at k > 0, the third (finish the row block) at k = 7.
-/
import proofs.«163720_g75763223101598_feedfinal_213_3_alg».proof.Proof.Gen.KernelIdeal.Frame
import proofs.«163720_g75763223101598_feedfinal_213_3_alg».proof.Proof.Gen.KernelIdeal.Skeleton

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The accumulator is started exactly at the points with k = 0. -/
theorem hcond1 : ∀ t : Fin cfg0.N, k0_cond1 (grid0.coords t) = 1#1 ↔ t.val % 8 = 0 :=
  (by decide +kernel : ∀ t : Fin grid0.N, k0_cond1 (grid0.coords t) = 1#1 ↔ t.val % 8 = 0)
/-- It is added to exactly at the points with k > 0. -/
theorem hcond2 : ∀ t : Fin cfg0.N, k0_cond2 (grid0.coords t) = 1#1 ↔ ¬ t.val % 8 = 0 :=
  (by decide +kernel : ∀ t : Fin grid0.N, k0_cond2 (grid0.coords t) = 1#1 ↔ ¬ t.val % 8 = 0)
/-- The row block is finished exactly at the points with k = 7. -/
theorem hcond3 : ∀ t : Fin cfg0.N, k0_cond3 (grid0.coords t) = 1#1 ↔ t.val % 8 = 7 :=
  (by decide +kernel : ∀ t : Fin grid0.N, k0_cond3 (grid0.coords t) = 1#1 ↔ t.val % 8 = 7)

/-- One staging buffer of the output window, through which its contents are stated (the choice does not matter). -/
abbrev VO : View sig .tc .vmem S512x4096 .f32 := (Memref.whole cc0_stg3_0 : Memref sig .tc .vmem S512x4096 .f32).view
/-- Each window's current staging memref at point t, as the pipeline passes it, and its wholeness. -/
abbrev ms0 (t : Fin cfg0.N) : Memref sig .tc .vmem S512x4096 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S4096x512 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x4096 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S512x4096 .f32 := win0_3.stage (cfg0.slots t 3)
abbrev hs3 (t : Fin cfg0.N) : (ms3 t).IsWhole := hstage0_3 ((cfg0.slots t 3).cast nbuf0_3)

end Cert.KernelIdeal.Hand

end
-- ==== Proof.KI.RunA.lean ====
/-
  The body at a point that STARTS a row block's accumulator (contraction block 0): it loads the 512×512 slice of
  the x block and the weight block, and stores their product over the whole output block; the other two branches
  are not taken. The list of stores the output's staging buffer ends with is found by running the body.
-/
import proofs.«163720_g75763223101598_feedfinal_213_3_alg».proof.Proof.KI.Conds

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The stores the output block ends with at such a point, with the proof that the body runs: the three input
    buffers are handed back as found, the output buffer (whatever it held) with those stores written. -/
noncomputable def runA (c : Dev nD) (i : grid0.Coords) (arg2 : Memref sig .tc .vmem S512x4096 .f32) (harg2 : arg2.IsWhole) (arg3 : Memref sig .tc .vmem S4096x512 .bf16) (harg3 : arg3.IsWhole) (arg4 : Memref sig .tc .vmem S1x4096 .f32) (harg4 : arg4.IsWhole) (arg5 : Memref sig .tc .vmem S512x4096 .f32) (harg5 : arg5.IsWhole)
    (hc1 : k0_cond1 i = 1#1) (hc2 : ¬ k0_cond2 i = 1#1) (hc3 : ¬ k0_cond3 i = 1#1)
    (x0 : Vec F S512x4096 .f32) (x1 : Vec F S4096x512 .bf16) (x2 : Vec F S1x4096 .f32) :
    { L : List (View.Piece (Elt F) S512x4096 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d)
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L)) -∗ K ⟨⟩))
          ⊢ wp frame (wpE (defs₀ (F := F)) Variants.none c none) E (cc0__ff_body i arg2 harg2 arg3 harg3 arg4 harg4 arg5 harg5) K } := by
  refine ⟨?_, fun E K => ?run⟩
  case run =>
    simp only [cc0__ff_body_eq_skeleton]; unfold cc0__ff_body_skel
    unfold owns
    iintro ⟨⟨%f0, %hf0, H0⟩, ⟨%f1, %hf1, H1⟩, ⟨%f2, %hf2, H2⟩, ⟨%d3, %f3, -, H3⟩, Hk⟩
    obtain rfl := harg2.eq_unread hf0; obtain rfl := harg3.eq_unread hf1; obtain rfl := harg4.eq_unread hf2
    sl_exec (disch := first | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact H3

end Cert.KernelIdeal.Hand

end
-- ==== Proof.KI.RunB.lean ====
/-
  The body at a point in the MIDDLE of a row block (contraction block 0 < k < 7): it loads the running
  accumulator from the output block, adds the product of this point's x slice and weight block, and stores the
  sum over the whole output block; the first and third branches are not taken. The list of stores the output's
  staging buffer ends with is found by running the body.
-/
import proofs.«163720_g75763223101598_feedfinal_213_3_alg».proof.Proof.KI.Conds

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- The stores the output block ends with at such a point, with the proof that the body runs: the three input
    buffers are handed back as found, the output buffer — holding the running accumulator xo — with those stores written. -/
noncomputable def runB (c : Dev nD) (i : grid0.Coords) (arg2 : Memref sig .tc .vmem S512x4096 .f32) (harg2 : arg2.IsWhole) (arg3 : Memref sig .tc .vmem S4096x512 .bf16) (harg3 : arg3.IsWhole) (arg4 : Memref sig .tc .vmem S1x4096 .f32) (harg4 : arg4.IsWhole) (arg5 : Memref sig .tc .vmem S512x4096 .f32) (harg5 : arg5.IsWhole)
    (hc1 : ¬ k0_cond1 i = 1#1) (hc2 : k0_cond2 i = 1#1) (hc3 : ¬ k0_cond3 i = 1#1)
    (x0 : Vec F S512x4096 .f32) (x1 : Vec F S4096x512 .bf16) (x2 : Vec F S1x4096 .f32) (xo : Vec F S512x4096 .f32) :
    { L : List (View.Piece (Elt F) S512x4096 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare xo
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L)) -∗ K ⟨⟩))
          ⊢ wp frame (wpE (defs₀ (F := F)) Variants.none c none) E (cc0__ff_body i arg2 harg2 arg3 harg3 arg4 harg4 arg5 harg5) K } := by
  refine ⟨?_, fun E K => ?run⟩
  case run =>
    simp only [cc0__ff_body_eq_skeleton]; unfold cc0__ff_body_skel
    unfold owns
    iintro ⟨⟨%f0, %hf0, H0⟩, ⟨%f1, %hf1, H1⟩, ⟨%f2, %hf2, H2⟩, ⟨%f3, %hf3, H3⟩, Hk⟩
    obtain rfl := harg2.eq_unread hf0; obtain rfl := harg3.eq_unread hf1; obtain rfl := harg4.eq_unread hf2
    obtain rfl := harg5.eq_unread hf3
    sl_exec (disch := first | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact H3

end Cert.KernelIdeal.Hand

end
-- ==== Proof.KI.RunC.lean ====
/-
  The body at the point that FINISHES a row block (contraction block 7): it adds this point's product to the
  accumulator and stores it, then reads the accumulator back, adds the bias row, rectifies, adds the x block,
  normalises each row by its mean and variance, and stores the result over the whole output block; the first
  branch is not taken. The list of stores the output's staging buffer ends with is found by running the body.
-/
import proofs.«163720_g75763223101598_feedfinal_213_3_alg».proof.Proof.KI.Conds

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- The stores the output block ends with at such a point, with the proof that the body runs: the three input
    buffers are handed back as found, the output buffer — holding the running accumulator xo — with those stores written. -/
noncomputable def runC (c : Dev nD) (i : grid0.Coords) (arg2 : Memref sig .tc .vmem S512x4096 .f32) (harg2 : arg2.IsWhole) (arg3 : Memref sig .tc .vmem S4096x512 .bf16) (harg3 : arg3.IsWhole) (arg4 : Memref sig .tc .vmem S1x4096 .f32) (harg4 : arg4.IsWhole) (arg5 : Memref sig .tc .vmem S512x4096 .f32) (harg5 : arg5.IsWhole)
    (hc1 : ¬ k0_cond1 i = 1#1) (hc2 : k0_cond2 i = 1#1) (hc3 : k0_cond3 i = 1#1)
    (x0 : Vec F S512x4096 .f32) (x1 : Vec F S4096x512 .bf16) (x2 : Vec F S1x4096 .f32) (xo : Vec F S512x4096 .f32) :
    { L : List (View.Piece (Elt F) S512x4096 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare xo
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L)) -∗ K ⟨⟩))
          ⊢ wp frame (wpE (defs₀ (F := F)) Variants.none c none) E (cc0__ff_body i arg2 harg2 arg3 harg3 arg4 harg4 arg5 harg5) K } := by
  refine ⟨?_, fun E K => ?run⟩
  case run =>
    simp only [cc0__ff_body_eq_skeleton]; unfold cc0__ff_body_skel
    unfold owns
    iintro ⟨⟨%f0, %hf0, H0⟩, ⟨%f1, %hf1, H1⟩, ⟨%f2, %hf2, H2⟩, ⟨%f3, %hf3, H3⟩, Hk⟩
    obtain rfl := harg2.eq_unread hf0; obtain rfl := harg3.eq_unread hf1; obtain rfl := harg4.eq_unread hf2
    obtain rfl := harg5.eq_unread hf3
    sl_exec (disch := first | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact H3

end Cert.KernelIdeal.Hand

end
-- ==== Proof.KI.Outs.lean ====
/-
  What the output block's staging buffer holds after the body at each grid point, the pipeline's proof data, the
  body obligation and the run. After a point with k = 0 the buffer holds what that point's stores leave; after a
  point with k > 0, what the point's stores leave given the buffer as the point before left it (the buffer is not
  written back in between: it is written back only after the points with k = 7). The three input windows are
  only read, so their buffers hold their blocks of the argument arrays throughout.
-/
import proofs.«163720_g75763223101598_feedfinal_213_3_alg».proof.Proof.KI.RunA
import proofs.«163720_g75763223101598_feedfinal_213_3_alg».proof.Proof.KI.RunB
import proofs.«163720_g75763223101598_feedfinal_213_3_alg».proof.Proof.KI.RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The branch conditions at a point, from k = t mod 8 -/

theorem cA1 (t : Fin cfg0.N) (h0 : t.val % 8 = 0) : k0_cond1 (grid0.coords t) = 1#1 := (hcond1 t).mpr h0
theorem cA2 (t : Fin cfg0.N) (h0 : t.val % 8 = 0) : ¬ k0_cond2 (grid0.coords t) = 1#1 := fun h => (hcond2 t).mp h h0
theorem cA3 (t : Fin cfg0.N) (h0 : t.val % 8 = 0) : ¬ k0_cond3 (grid0.coords t) = 1#1 := fun h => by
  have := (hcond3 t).mp h; omega
theorem cB1 (t : Fin cfg0.N) (h0 : ¬ t.val % 8 = 0) : ¬ k0_cond1 (grid0.coords t) = 1#1 := fun h => h0 ((hcond1 t).mp h)
theorem cB2 (t : Fin cfg0.N) (h0 : ¬ t.val % 8 = 0) : k0_cond2 (grid0.coords t) = 1#1 := (hcond2 t).mpr h0
theorem cB3 (t : Fin cfg0.N) (h7 : ¬ t.val % 8 = 7) : ¬ k0_cond3 (grid0.coords t) = 1#1 := fun h => h7 ((hcond3 t).mp h)
theorem cC3 (t : Fin cfg0.N) (h7 : t.val % 8 = 7) : k0_cond3 (grid0.coords t) = 1#1 := (hcond3 t).mpr h7

/-- The output window is stored into at every point (one of the first two branches is always taken). -/
theorem live3 : ∀ i : grid0.Coords, cfg0.idle 3 i = false := fun i => by
  have h : ∀ k : Fin 8, (!(Scalar.cmpi .ne (Scalar.extui (Scalar.cmpi .eq (BitVec.ofNat 32 k.val) 0#32)) 0#32 == 1#1)
      && !(Scalar.cmpi .ne (Scalar.extui (Scalar.cmpi .sgt (BitVec.ofNat 32 k.val) 0#32)) 0#32 == 1#1)
      && !(Scalar.cmpi .ne (Scalar.extui (Scalar.cmpi .eq (BitVec.ofNat 32 k.val) 7#32)) 0#32 == 1#1)) = false := by decide
  exact h (i 1)

/-! ## What each kind of point leaves in the output block -/

theorem coverA (c : Dev nD) (i : grid0.Coords) (arg2 : Memref sig .tc .vmem S512x4096 .f32) (harg2 : arg2.IsWhole) (arg3 : Memref sig .tc .vmem S4096x512 .bf16) (harg3 : arg3.IsWhole) (arg4 : Memref sig .tc .vmem S1x4096 .f32) (harg4 : arg4.IsWhole) (arg5 : Memref sig .tc .vmem S512x4096 .f32) (harg5 : arg5.IsWhole)
    (hc1 : k0_cond1 i = 1#1) (hc2 : ¬ k0_cond2 i = 1#1) (hc3 : ¬ k0_cond3 i = 1#1)
    (x0 : Vec F S512x4096 .f32) (x1 : Vec F S4096x512 .bf16) (x2 : Vec F S1x4096 .f32) (y : S512x4096.Idx) :
    ∃ pc ∈ (runA c i arg2 harg2 arg3 harg3 arg4 harg4 arg5 harg5 hc1 hc2 hc3 x0 x1 x2).1, y ∈ pc.1.set :=
  View.cover_of_tiledL (runA c i arg2 harg2 arg3 harg3 arg4 harg4 arg5 harg5 hc1 hc2 hc3 x0 x1 x2).1 S512x4096.size (by sl_kernel_rfl) y

/-- What a point with k = 0 leaves in the output block: its stores read back. -/
def outA (c : Dev nD) (i : grid0.Coords) (arg2 : Memref sig .tc .vmem S512x4096 .f32) (harg2 : arg2.IsWhole) (arg3 : Memref sig .tc .vmem S4096x512 .bf16) (harg3 : arg3.IsWhole) (arg4 : Memref sig .tc .vmem S1x4096 .f32) (harg4 : arg4.IsWhole) (arg5 : Memref sig .tc .vmem S512x4096 .f32) (harg5 : arg5.IsWhole)
    (hc1 : k0_cond1 i = 1#1) (hc2 : ¬ k0_cond2 i = 1#1) (hc3 : ¬ k0_cond3 i = 1#1)
    (x0 : Vec F S512x4096 .f32) (x1 : Vec F S4096x512 .bf16) (x2 : Vec F S1x4096 .f32) : Vec F S512x4096 .f32 :=
  VO.read (Elt F) (VO.writes (Elt F) VO.junk (runA c i arg2 harg2 arg3 harg3 arg4 harg4 arg5 harg5 hc1 hc2 hc3 x0 x1 x2).1)

theorem coverB (c : Dev nD) (i : grid0.Coords) (arg2 : Memref sig .tc .vmem S512x4096 .f32) (harg2 : arg2.IsWhole) (arg3 : Memref sig .tc .vmem S4096x512 .bf16) (harg3 : arg3.IsWhole) (arg4 : Memref sig .tc .vmem S1x4096 .f32) (harg4 : arg4.IsWhole) (arg5 : Memref sig .tc .vmem S512x4096 .f32) (harg5 : arg5.IsWhole)
    (hc1 : ¬ k0_cond1 i = 1#1) (hc2 : k0_cond2 i = 1#1) (hc3 : ¬ k0_cond3 i = 1#1)
    (x0 : Vec F S512x4096 .f32) (x1 : Vec F S4096x512 .bf16) (x2 : Vec F S1x4096 .f32) (xo : Vec F S512x4096 .f32) (y : S512x4096.Idx) :
    ∃ pc ∈ (runB c i arg2 harg2 arg3 harg3 arg4 harg4 arg5 harg5 hc1 hc2 hc3 x0 x1 x2 xo).1, y ∈ pc.1.set :=
  View.cover_of_tiledL (runB c i arg2 harg2 arg3 harg3 arg4 harg4 arg5 harg5 hc1 hc2 hc3 x0 x1 x2 xo).1 S512x4096.size (by sl_kernel_rfl) y

/-- What a point with 0 < k < 7 leaves in the output block, given what it found there. -/
def outB (c : Dev nD) (i : grid0.Coords) (arg2 : Memref sig .tc .vmem S512x4096 .f32) (harg2 : arg2.IsWhole) (arg3 : Memref sig .tc .vmem S4096x512 .bf16) (harg3 : arg3.IsWhole) (arg4 : Memref sig .tc .vmem S1x4096 .f32) (harg4 : arg4.IsWhole) (arg5 : Memref sig .tc .vmem S512x4096 .f32) (harg5 : arg5.IsWhole)
    (hc1 : ¬ k0_cond1 i = 1#1) (hc2 : k0_cond2 i = 1#1) (hc3 : ¬ k0_cond3 i = 1#1)
    (x0 : Vec F S512x4096 .f32) (x1 : Vec F S4096x512 .bf16) (x2 : Vec F S1x4096 .f32) (xo : Vec F S512x4096 .f32) : Vec F S512x4096 .f32 :=
  VO.read (Elt F) (VO.writes (Elt F) VO.junk (runB c i arg2 harg2 arg3 harg3 arg4 harg4 arg5 harg5 hc1 hc2 hc3 x0 x1 x2 xo).1)

theorem coverC (c : Dev nD) (i : grid0.Coords) (arg2 : Memref sig .tc .vmem S512x4096 .f32) (harg2 : arg2.IsWhole) (arg3 : Memref sig .tc .vmem S4096x512 .bf16) (harg3 : arg3.IsWhole) (arg4 : Memref sig .tc .vmem S1x4096 .f32) (harg4 : arg4.IsWhole) (arg5 : Memref sig .tc .vmem S512x4096 .f32) (harg5 : arg5.IsWhole)
    (hc1 : ¬ k0_cond1 i = 1#1) (hc2 : k0_cond2 i = 1#1) (hc3 : k0_cond3 i = 1#1)
    (x0 : Vec F S512x4096 .f32) (x1 : Vec F S4096x512 .bf16) (x2 : Vec F S1x4096 .f32) (xo : Vec F S512x4096 .f32) (y : S512x4096.Idx) :
    ∃ pc ∈ (runC c i arg2 harg2 arg3 harg3 arg4 harg4 arg5 harg5 hc1 hc2 hc3 x0 x1 x2 xo).1, y ∈ pc.1.set :=
  View.cover_of_tiledL (runC c i arg2 harg2 arg3 harg3 arg4 harg4 arg5 harg5 hc1 hc2 hc3 x0 x1 x2 xo).1 S512x4096.size (by sl_kernel_rfl) y

/-- What the point with k = 7 leaves in the output block, given what it found there. -/
def outC (c : Dev nD) (i : grid0.Coords) (arg2 : Memref sig .tc .vmem S512x4096 .f32) (harg2 : arg2.IsWhole) (arg3 : Memref sig .tc .vmem S4096x512 .bf16) (harg3 : arg3.IsWhole) (arg4 : Memref sig .tc .vmem S1x4096 .f32) (harg4 : arg4.IsWhole) (arg5 : Memref sig .tc .vmem S512x4096 .f32) (harg5 : arg5.IsWhole)
    (hc1 : ¬ k0_cond1 i = 1#1) (hc2 : k0_cond2 i = 1#1) (hc3 : k0_cond3 i = 1#1)
    (x0 : Vec F S512x4096 .f32) (x1 : Vec F S4096x512 .bf16) (x2 : Vec F S1x4096 .f32) (xo : Vec F S512x4096 .f32) : Vec F S512x4096 .f32 :=
  VO.read (Elt F) (VO.writes (Elt F) VO.junk (runC c i arg2 harg2 arg3 harg3 arg4 harg4 arg5 harg5 hc1 hc2 hc3 x0 x1 x2 xo).1)

/-! ## The output block point by point -/

/-- What the output block's staging buffer holds after the body at position n of the walk: started afresh where
    k = 0, otherwise built on what position n − 1 left. -/
def outsAt (c : Dev nD) : (n : ℕ) → n < cfg0.N → Vec F S512x4096 .f32
  | 0, hn => outA c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (cA1 ⟨0, hn⟩ (Nat.zero_mod _)) (cA2 ⟨0, hn⟩ (Nat.zero_mod _)) (cA3 ⟨0, hn⟩ (Nat.zero_mod _)) (iblk m c 0 ⟨0, hn⟩) (iblk m c 1 ⟨0, hn⟩) (iblk m c 2 ⟨0, hn⟩)
  | n + 1, hn =>
    if h0 : (n + 1) % 8 = 0 then
      outA c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (cA1 ⟨n + 1, hn⟩ h0) (cA2 ⟨n + 1, hn⟩ h0) (cA3 ⟨n + 1, hn⟩ h0) (iblk m c 0 ⟨n + 1, hn⟩) (iblk m c 1 ⟨n + 1, hn⟩) (iblk m c 2 ⟨n + 1, hn⟩)
    else if h7 : (n + 1) % 8 = 7 then
      outC c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (cB1 ⟨n + 1, hn⟩ h0) (cB2 ⟨n + 1, hn⟩ h0) (cC3 ⟨n + 1, hn⟩ h7) (iblk m c 0 ⟨n + 1, hn⟩) (iblk m c 1 ⟨n + 1, hn⟩) (iblk m c 2 ⟨n + 1, hn⟩) (outsAt c n (Nat.lt_of_succ_lt hn))
    else
      outB c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (cB1 ⟨n + 1, hn⟩ h0) (cB2 ⟨n + 1, hn⟩ h0) (cB3 ⟨n + 1, hn⟩ h7) (iblk m c 0 ⟨n + 1, hn⟩) (iblk m c 1 ⟨n + 1, hn⟩) (iblk m c 2 ⟨n + 1, hn⟩) (outsAt c n (Nat.lt_of_succ_lt hn))

theorem outsAt_A (c : Dev nD) (t : Fin cfg0.N) (h0 : t.val % 8 = 0) :
    outsAt m c t.val t.isLt = outA c (grid0.coords t) (ms0 t) (hs0 t) (ms1 t) (hs1 t) (ms2 t) (hs2 t) (ms3 t) (hs3 t) (cA1 t h0) (cA2 t h0) (cA3 t h0) (iblk m c 0 t) (iblk m c 1 t) (iblk m c 2 t) := by
  obtain ⟨n, hn⟩ := t
  cases n with
  | zero => exact rfl
  | succ n => exact (dif_pos h0).trans rfl

theorem outsAt_B (c : Dev nD) (t : Fin cfg0.N) (h0 : ¬ t.val % 8 = 0) (h7 : ¬ t.val % 8 = 7) :
    outsAt m c t.val t.isLt = outB c (grid0.coords t) (ms0 t) (hs0 t) (ms1 t) (hs1 t) (ms2 t) (hs2 t) (ms3 t) (hs3 t) (cB1 t h0) (cB2 t h0) (cB3 t h7) (iblk m c 0 t) (iblk m c 1 t) (iblk m c 2 t)
      (outsAt m c (t.val - 1) (Nat.lt_of_le_of_lt (Nat.sub_le _ _) t.isLt)) := by
  obtain ⟨n, hn⟩ := t
  cases n with
  | zero => exact (by exfalso; exact absurd (Nat.zero_mod _) h0)
  | succ n => exact (dif_neg h0).trans ((dif_neg h7).trans rfl)

theorem outsAt_C (c : Dev nD) (t : Fin cfg0.N) (h0 : ¬ t.val % 8 = 0) (h7 : t.val % 8 = 7) :
    outsAt m c t.val t.isLt = outC c (grid0.coords t) (ms0 t) (hs0 t) (ms1 t) (hs1 t) (ms2 t) (hs2 t) (ms3 t) (hs3 t) (cB1 t h0) (cB2 t h0) (cC3 t h7) (iblk m c 0 t) (iblk m c 1 t) (iblk m c 2 t)
      (outsAt m c (t.val - 1) (Nat.lt_of_le_of_lt (Nat.sub_le _ _) t.isLt)) := by
  obtain ⟨n, hn⟩ := t
  cases n with
  | zero => exact (by exfalso; exact absurd (Nat.zero_mod _) h0)
  | succ n => exact (dif_neg h0).trans ((dif_pos h7).trans rfl)

/-! ## The pipeline's proof data -/

/-- The arrays as the region finds them; after the body at point t each input's buffer at its block and the
    output's at outsAt; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (outsAt m c t.val t.isLt)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = (outsAt m c t.val t.isLt) := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d

/-- At a point with k > 0 the output's staging buffer holds what the body left at the point before: the buffer
    is written back only after the points with k = 7, and the window is stored into at every point. -/
theorem before_3 (c : Dev nD) (t : Fin cfg0.N) (h0 : ¬ t.val % 8 = 0) (d) :
    (dats m 0 c).before 3 t d = (outsAt m c (t.val - 1) (Nat.lt_of_le_of_lt (Nat.sub_le _ _) t.isLt)) := by
  have hN : t.val < 256 := lt_of_lt_of_eq t.isLt (show cfg0.N = 256 from N_0)
  rw [Dat.before_out_kept _ 3 rfl t (by omega) (Bool.eq_false_iff.mpr fun h => by have := (flush0_3 _).mp h; dsimp only at this; omega)
    live3 (fun _ _ => rfl)]
  dsimp only [dats]

end Cert.KernelIdeal.Hand

end
-- ==== Proof.KI.Body.lean ====
/-
  The body obligation at every grid point, the pipeline's run, and the frame: at each point the three input
  buffers hold their blocks, the point's k = t mod 8 selects which branches run, the output buffer (at k > 0) holds
  what the point before left, and the body's run for that kind of point applies. The run of the whole pipeline
  then ends with every argument array unchanged.
-/
import proofs.«163720_g75763223101598_feedfinal_213_3_alg».proof.Proof.KI.Outs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body is called with at point t, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t))

set_option maxHeartbeats 1600000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2]
  rw [show (dats m 0 c).Φ t.succ = (dats m 0 c).Φ t.castSucc from rfl,
    show (dats m 0 c).owesAt () t.succ = (dats m 0 c).owesAt () t.castSucc from rfl,
    after_0, after_1, after_2, after_3]
  by_cases h0 : t.val % 8 = 0
  · rw [outsAt_A m c t h0]
    unfold outA
    iintro ⟨HΦ, Ho, ⟨%d0, H0⟩, ⟨%d1, H1⟩, ⟨%d2, H2⟩, ⟨%d3, H3⟩⟩
    iapply ((runA c (grid0.coords t) _ _ _ _ _ _ _ _ (cA1 t h0) (cA2 t h0) (cA3 t h0) (iblk m c 0 t) (iblk m c 1 t) (iblk m c 2 t)).2 Set.univ _)
    isplitl [H0]; · iexact H0
    isplitl [H1]; · iexact H1
    isplitl [H2]; · iexact H2
    isplitl [H3]; · iexists _; iexact H3
    iintro ⟨H0, H1, H2, ⟨%e3, H3⟩⟩
    isplitl [HΦ]; · iexact HΦ
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (coverA c _ _ _ _ _ _ _ _ _ _ _ _ _ _ _)
  · simp only [before_3 m c t h0]
    by_cases h7 : t.val % 8 = 7
    · rw [outsAt_C m c t h0 h7]
      unfold outC
      iintro ⟨HΦ, Ho, ⟨%d0, H0⟩, ⟨%d1, H1⟩, ⟨%d2, H2⟩, ⟨%d3, H3⟩⟩
      iapply ((runC c (grid0.coords t) _ _ _ _ _ _ _ _ (cB1 t h0) (cB2 t h0) (cC3 t h7) (iblk m c 0 t) (iblk m c 1 t) (iblk m c 2 t) _).2 Set.univ _)
      isplitl [H0]; · iexact H0
      isplitl [H1]; · iexact H1
      isplitl [H2]; · iexact H2
      isplitl [H3]; · iexact H3
      iintro ⟨H0, H1, H2, ⟨%e3, H3⟩⟩
      isplitl [HΦ]; · iexact HΦ
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (coverC c _ _ _ _ _ _ _ _ _ _ _ _ _ _ _ _)
    · rw [outsAt_B m c t h0 h7]
      unfold outB
      iintro ⟨HΦ, Ho, ⟨%d0, H0⟩, ⟨%d1, H1⟩, ⟨%d2, H2⟩, ⟨%d3, H3⟩⟩
      iapply ((runB c (grid0.coords t) _ _ _ _ _ _ _ _ (cB1 t h0) (cB2 t h0) (cB3 t h7) (iblk m c 0 t) (iblk m c 1 t) (iblk m c 2 t) _).2 Set.univ _)
      isplitl [H0]; · iexact H0
      isplitl [H1]; · iexact H1
      isplitl [H2]; · iexact H2
      isplitl [H3]; · iexact H3
      iintro ⟨H0, H1, H2, ⟨%e3, H3⟩⟩
      isplitl [HΦ]; · iexact HΦ
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (coverB c _ _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  rw [live3 (cfg0.grid.coords t)]
  exact sound_body m c t

set_option backward.isDefEq.respectTransparency.types false in
/-- Every weakly fair execution of the program terminates, and every final state has every array of the pipeline
    at what the library computes from the proof data and every other buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the program runs to the end, faults nowhere, and leaves its three argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.KernelIdeal.Hand

end
-- ==== Proof.KI.Pieces.lean ====
/-
  What each kind of point leaves in the output block, as a value. A point with k = 0 leaves the product of its
  512×512 slice of the x block with the weight block; a point with 0 < k < 7 leaves what it found plus that
  product; the point with k = 7 leaves the normalised rows of (what it found plus the product), the bias row and
  the x block. Each is the payload of the point's last store over the whole block, its loads read through the
  whole buffers.
-/
import proofs.«163720_g75763223101598_feedfinal_213_3_alg».proof.Proof.KI.Outs
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz : (![0, 0] : Fin 2 → Nat) = fun _ => 0 := funext fun a => by fin_cases a <;> rfl

/-- The 512×512 slice of the x block a point multiplies: columns 512k … 512k + 511. -/
abbrev xslice (i : grid0.Coords) (x0 : Vec F S512x4096 .f32) : Vec F S512x512 .f32 :=
  View.ld x0 (Rect.unit (s := S512x4096) (k0_off1 i) S512x512.size (k0_off1_inb i))

theorem outA_eq (c : Dev nD) (i : grid0.Coords) (arg2 : Memref sig .tc .vmem S512x4096 .f32) (harg2 : arg2.IsWhole) (arg3 : Memref sig .tc .vmem S4096x512 .bf16) (harg3 : arg3.IsWhole) (arg4 : Memref sig .tc .vmem S1x4096 .f32) (harg4 : arg4.IsWhole) (arg5 : Memref sig .tc .vmem S512x4096 .f32) (harg5 : arg5.IsWhole)
    (hc1 : k0_cond1 i = 1#1) (hc2 : ¬ k0_cond2 i = 1#1) (hc3 : ¬ k0_cond3 i = 1#1)
    (x0 : Vec F S512x4096 .f32) (x1 : Vec F S4096x512 .bf16) (x2 : Vec F S1x4096 .f32) :
    outA c i arg2 harg2 arg3 harg3 arg4 harg4 arg5 harg5 hc1 hc2 hc3 x0 x1 x2 = k0_pay1 (xslice i x0) x1 := by
  unfold outA
  rw [View.read_writes_eq_canon _ _ _ (coverA c i arg2 harg2 arg3 harg3 arg4 harg4 arg5 harg5 hc1 hc2 hc3 x0 x1 x2)]
  unfold runA
  dsimp only
  rw [View.canon_unit_zero hz]
  simp only [View.readAt_eq_ld, harg2.read_unread, harg3.read_unread, View.ld_unit_zero (S := S4096x512) hz]

theorem outB_eq (c : Dev nD) (i : grid0.Coords) (arg2 : Memref sig .tc .vmem S512x4096 .f32) (harg2 : arg2.IsWhole) (arg3 : Memref sig .tc .vmem S4096x512 .bf16) (harg3 : arg3.IsWhole) (arg4 : Memref sig .tc .vmem S1x4096 .f32) (harg4 : arg4.IsWhole) (arg5 : Memref sig .tc .vmem S512x4096 .f32) (harg5 : arg5.IsWhole)
    (hc1 : ¬ k0_cond1 i = 1#1) (hc2 : k0_cond2 i = 1#1) (hc3 : ¬ k0_cond3 i = 1#1)
    (x0 : Vec F S512x4096 .f32) (x1 : Vec F S4096x512 .bf16) (x2 : Vec F S1x4096 .f32) (xo : Vec F S512x4096 .f32) :
    outB c i arg2 harg2 arg3 harg3 arg4 harg4 arg5 harg5 hc1 hc2 hc3 x0 x1 x2 xo = k0_pay2 (xslice i x0) x1 xo := by
  unfold outB
  rw [View.read_writes_eq_canon _ _ _ (coverB c i arg2 harg2 arg3 harg3 arg4 harg4 arg5 harg5 hc1 hc2 hc3 x0 x1 x2 xo)]
  unfold runB
  dsimp only
  rw [View.canon_unit_zero hz]
  simp only [View.readAt_eq_ld, harg2.read_unread, harg3.read_unread, harg5.read_unread, View.ld_unit_zero (S := S4096x512) hz,
    View.ld_unit_zero (S := S512x4096) hz]

theorem outC_eq (c : Dev nD) (i : grid0.Coords) (arg2 : Memref sig .tc .vmem S512x4096 .f32) (harg2 : arg2.IsWhole) (arg3 : Memref sig .tc .vmem S4096x512 .bf16) (harg3 : arg3.IsWhole) (arg4 : Memref sig .tc .vmem S1x4096 .f32) (harg4 : arg4.IsWhole) (arg5 : Memref sig .tc .vmem S512x4096 .f32) (harg5 : arg5.IsWhole)
    (hc1 : ¬ k0_cond1 i = 1#1) (hc2 : k0_cond2 i = 1#1) (hc3 : k0_cond3 i = 1#1)
    (x0 : Vec F S512x4096 .f32) (x1 : Vec F S4096x512 .bf16) (x2 : Vec F S1x4096 .f32) (xo : Vec F S512x4096 .f32) :
    outC c i arg2 harg2 arg3 harg3 arg4 harg4 arg5 harg5 hc1 hc2 hc3 x0 x1 x2 xo
      = k0_pay3 (k0_pay2 (xslice i x0) x1 xo) x2 x0 := by
  unfold outC
  rw [View.read_writes_eq_canon _ _ _ (coverC c i arg2 harg2 arg3 harg3 arg4 harg4 arg5 harg5 hc1 hc2 hc3 x0 x1 x2 xo)]
  unfold runC
  dsimp only
  sl_unfold_words
  rw [View.canon_cons_unit_zero (S := S512x4096) hz, View.readCov_unit_zero (S := S512x4096) _ hz]
  simp only [View.readAt_eq_ld, harg2.read_unread, harg3.read_unread, harg4.read_unread, harg5.read_unread,
    View.ld_unit_zero (S := S4096x512) hz, View.ld_unit_zero (S := S512x4096) hz, View.ld_unit_zero (S := S1x4096) hz]
  rfl

end Cert.KernelIdeal.Hand

end
-- ==== Proof.LibDotNT.lean ====
/-
  A matrix product against a transposed right operand, read at an index, on the extended reals.

  For dimension numbers that contract the left operand's second axis against the right operand's
  SECOND axis, with no batch axes (an `M×K` matrix times the transpose of an `N×K` matrix), entry
  `(p, c)` of the product is `Σ_{q < K} l[p, q] · r[c, q]`. The library states a product as a sum over
  the contraction shape's multi-indices; here that sum is re-indexed by the one contracted coordinate,
  once, for every record of this form and every extent.
-/
import Idealize.ShloMosaic.PureOps.Ideal.Laws
import Idealize.ShloMosaic.Lib.ValueIdx

noncomputable section

open scoped BigOperators

namespace Cert.DotNT

open Idealize.ShloMosaic Idealize.ShloMosaic.ValueIdx

variable {M K N : Nat} (d : DotDims ⟨2, ![M, K]⟩ ⟨2, ![N, K]⟩ ⟨2, ![M, N]⟩)

/-- The dimension numbers of a product with a transposed right operand: contract left axis 1 with right
    axis 1, keep left axis 0 and right axis 0 in that order, no batch axes. -/
structure IsNT : Prop where
  lc : d.lhsContracting = [1]
  rc : d.rhsContracting = [1]
  ln : d.lhsNonContracting = [0]
  rn : d.rhsNonContracting = [0]
  lb : d.lhsBatch = []
  rb : d.rhsBatch = []

variable {d}

/-- The contraction shape has one axis. -/
theorem contr_rank (h : IsNT d) : d.contr.rank = 1 := by rw [d.rank_contr, h.lc]; rfl

/-- That axis has the shared extent `K`. -/
theorem contr_size (h : IsNT d) : d.contr.size ⟨0, by rw [contr_rank h]; exact Nat.one_pos⟩ = K := by
  rw [d.size_contr 0 (by rw [h.lc]; exact Nat.one_pos), List.getElem_of_eq h.lc]
  rfl

/-- A coordinate of an index depends only on the axis number. -/
private theorem coord_congr {s : Shape} (j : s.Idx) (p q : Nat) (hp : p < s.rank) (hq : q < s.rank) (e : p = q) :
    (j ⟨p, hp⟩).val = (j ⟨q, hq⟩).val := by subst e; rfl

/-- The left operand is read at the result's row. -/
theorem lhs_row (h : IsNT d) (j : (⟨2, ![M, N]⟩ : Shape).Idx) (k : d.contr.Idx) : (d.lhsIdx j k 0).val = (j 0).val := by
  unfold DotDims.lhsIdx
  rw [dif_neg (by rw [h.lb]; exact List.not_mem_nil), dif_pos (by rw [h.ln]; exact List.mem_singleton.mpr rfl)]
  simp only [Fin.val_cast]
  exact coord_congr j _ _ _ _ (by rw [h.lb, h.ln]; rfl)

/-- The right operand's ROW is the result's column. -/
theorem rhs_row (h : IsNT d) (j : (⟨2, ![M, N]⟩ : Shape).Idx) (k : d.contr.Idx) : (d.rhsIdx j k 0).val = (j 1).val := by
  unfold DotDims.rhsIdx
  rw [dif_neg (by rw [h.rb]; exact List.not_mem_nil), dif_pos (by rw [h.rn]; exact List.mem_singleton.mpr rfl)]
  simp only [Fin.val_cast]
  exact coord_congr j _ _ _ _ (by rw [h.lb, h.ln, h.rn]; rfl)

/-- The library's sum over contraction multi-indices is the sum over the contracted coordinate. -/
theorem sum_contr (h : IsNT d) (l : (⟨2, ![M, K]⟩ : Shape).Idx → EReal) (r : (⟨2, ![N, K]⟩ : Shape).Idx → EReal)
    (j : (⟨2, ![M, N]⟩ : Shape).Idx) :
    ∑ k : d.contr.Idx, l (d.lhsIdx j k) * r (d.rhsIdx j k) = ∑ q : Fin K, l (ix2 (j 0) q) * r (ix2 (j 1) q) := by
  have hr : d.contr.rank = 1 := contr_rank h
  have hs : d.contr.size ⟨0, by omega⟩ = K := contr_size h
  rw [← Equiv.sum_comp (contrEquiv1 d K hr hs).symm]
  refine Finset.sum_congr rfl fun q _ => ?_
  have hq := contrEquiv1_symm_val d K hr hs q
  have el : d.lhsIdx j ((contrEquiv1 d K hr hs).symm q) = ix2 (j 0) q := funext fun a => Fin.ext (by
    match a with
    | ⟨0, _⟩ => exact lhs_row h j _
    | ⟨1, _⟩ => exact (d.lhsIdx_val_of_single h.lc j _).trans hq)
  have er : d.rhsIdx j ((contrEquiv1 d K hr hs).symm q) = ix2 (j 1) q := funext fun a => Fin.ext (by
    match a with
    | ⟨0, _⟩ => exact rhs_row h j _
    | ⟨1, _⟩ => exact (d.rhsIdx_val_of_single h.rc j _).trans hq)
  rw [el, er]
  rfl

/-- A `tpu.matmul` into a zero accumulator, at entry `(p, c)`. -/
theorem matmul_zero_apply (h : IsNT d) (prec : Option ContractPrecision) {φ₁ φ₂ : FTy}
    (l : FVec Ideal ⟨2, ![M, K]⟩ φ₁) (r : FVec Ideal ⟨2, ![N, K]⟩ φ₂) (p : Fin M) (c : Fin N) :
    matmul d prec l r (constant ⟨2, ![M, N]⟩ .f32 0x00000000#32) (ix2 p c) = ∑ q : Fin K, l (ix2 p q) * r (ix2 c q) :=
  (Ideal.matmul_constant_zero_apply d prec l r (ix2 p c)).trans (sum_contr h l r (ix2 p c))

/-- The host's `dot_general` of the same form, at entry `(p, c)`. -/
theorem dotGeneral_apply (h : IsNT d) (prec : Option ContractPrecision) {φ₁ φ₂ : FTy}
    (l : FVec Ideal ⟨2, ![M, K]⟩ φ₁) (r : FVec Ideal ⟨2, ![N, K]⟩ φ₂) (p : Fin M) (c : Fin N) :
    Host.dotGeneral d prec l r (ix2 p c) = ∑ q : Fin K, l (ix2 p q) * r (ix2 c q) :=
  (Ideal.dotGeneral_apply d prec .single l r (ix2 p c)).trans (sum_contr h l r (ix2 p c))

end Cert.DotNT

end
-- ==== Proof.KernelPay.lean ====
/-
  The program's first two stored blocks, read at one entry, on the extended reals.

  The first block is the product of a 512×512 block of the input with the transpose of a 4096×512 block
  of the weights: entry (p, c) is Σ_q a[p, q] · w[c, q]. The second is the same product added to the
  block already accumulated.
-/
import proofs.«163720_g75763223101598_feedfinal_213_3_alg».proof.Proof.Gen.KernelIdeal.Skeleton
import proofs.«163720_g75763223101598_feedfinal_213_3_alg».proof.Proof.LibDotNT
import Idealize.ShloMosaic.Lib.Pipeline.Value

noncomputable section

open scoped BigOperators

namespace Cert.KernelIdeal.Pay

open Cert.KernelIdeal Cert.KernelIdeal.Gen Idealize.ShloMosaic Idealize.ShloMosaic.ValueIdx

/-- The product block at (p, c): the sum over the contracted coordinate. -/
theorem pay1_apply (v2 : Vec Ideal S512x512 .f32) (v4 : Vec Ideal S4096x512 .bf16) (p : Fin 512) (c : Fin 4096) :
    k0_pay1 (F := Ideal) v2 v4 (ix2 p c) = ∑ q : Fin 512, v2 (ix2 p q) * v4 (ix2 c q) := by
  unfold k0_pay1
  rw [shapeCast_self]
  exact Cert.DotNT.matmul_zero_apply (d := dot_S512x512_S4096x512_S512x4096_1_1_0_0_n_n)
    ⟨rfl, rfl, rfl, rfl, rfl, rfl⟩ none _ _ p c

/-- The accumulated block at (p, c): the block read back plus the product. -/
theorem pay2_apply (v2 : Vec Ideal S512x512 .f32) (v4 : Vec Ideal S4096x512 .bf16) (v16 : Vec Ideal S512x4096 .f32)
    (p : Fin 512) (c : Fin 4096) :
    k0_pay2 (F := Ideal) v2 v4 v16 (ix2 p c) = v16 (ix2 p c) + ∑ q : Fin 512, v2 (ix2 p q) * v4 (ix2 c q) := by
  unfold k0_pay2
  rw [shapeCast_self]
  exact congrArg (fun t => v16 (ix2 p c) + t) (pay1_apply v2 v4 p c)

end Cert.KernelIdeal.Pay

end
-- ==== Proof.LibAxisFold.lean ====
/-
  The maximum down a column, the maximum along a row and the sum along a row of a matrix, each read at one
  index.

  An [a, b] array of extended reals reduced by `max` along axis 0 (down its rows), from the value a starting
  word denotes, holds at column l the fold of `max` from that value over the entries (k, l), k < a; reduced
  along axis 1 it holds at row p the fold over the entries (p, k), k < b; and reduced by addition along axis 1
  from a zero starting value it holds at row p the finite sum of the entries (p, k). (The sum down a column is
  the companion file's.) Stated with the operation's own proof arguments as variables, so that a printed
  reduction meets each lemma in term mode whatever proofs it carries. Depends on no program.
-/
import Idealize.ShloMosaic.Lib.ValueIdx
import Idealize.ShloMosaic.PureOps.Ideal.Laws

noncomputable section

namespace Cert.AxisFold

open Idealize.ShloMosaic Idealize.ShloMosaic.ValueIdx

/-- The maximum of column `l` of an [a, b] array over its `a` rows, folded from the value of the word `acc`. -/
theorem column_max {a b : ℕ} (v : FVec Ideal ⟨2, ![a, b]⟩ .f32) (acc : BitVec (FTy.f32).bits)
    (h : (⟨2, ![a, b]⟩ : Shape).Reduces [0] ⟨1, ![b]⟩)
    (hφ : FKind.Formats .f32) (hacc : acc = FKind.maximumf.neutral .f32 hφ) (l : Fin b) :
    multiReduction .maximumf [0] ⟨1, ![b]⟩ v acc h hφ hacc (ix1 l)
      = (Finset.univ : Finset (Fin a)).fold max (Ideal.ofBits .f32 acc) fun k => v (ix2 k l) :=
  (Ideal.multiReduction_maximumf_single v acc h hφ hacc (ix1 l)).trans
    (congrArg (fun f => Finset.fold max (Ideal.ofBits .f32 acc) f (Finset.univ : Finset (Fin a)))
      (funext fun k => congrArg v (funext fun c => Fin.ext (by
        match c with
        | ⟨0, _⟩ => rfl
        | ⟨1, _⟩ => rfl))))

/-- The maximum of row `p` of an [a, b] array over its `b` columns, folded from the value of the word `acc`. -/
theorem row_max {a b : ℕ} (v : FVec Ideal ⟨2, ![a, b]⟩ .f32) (acc : BitVec (FTy.f32).bits)
    (h : (⟨2, ![a, b]⟩ : Shape).Reduces [1] ⟨1, ![a]⟩)
    (hφ : FKind.Formats .f32) (hacc : acc = FKind.maximumf.neutral .f32 hφ) (p : Fin a) :
    multiReduction .maximumf [1] ⟨1, ![a]⟩ v acc h hφ hacc (ix1 p)
      = (Finset.univ : Finset (Fin b)).fold max (Ideal.ofBits .f32 acc) fun k => v (ix2 p k) :=
  (Ideal.multiReduction_maximumf_single v acc h hφ hacc (ix1 p)).trans
    (congrArg (fun f => Finset.fold max (Ideal.ofBits .f32 acc) f (Finset.univ : Finset (Fin b)))
      (funext fun k => congrArg v (funext fun c => Fin.ext (by
        match c with
        | ⟨0, _⟩ => rfl
        | ⟨1, _⟩ => rfl))))

/-- The sum of row `p` of an [a, b] array over its `b` columns, from a zero initial value. -/
theorem row_sum {a b : ℕ} (v : FVec Ideal ⟨2, ![a, b]⟩ .f32) (h : (⟨2, ![a, b]⟩ : Shape).Reduces [1] ⟨1, ![a]⟩)
    (hφ : FKind.Formats .f32) (hacc : (0x00000000#32 : BitVec (FTy.f32).bits) = FKind.add.neutral .f32 hφ) (p : Fin a) :
    multiReduction .add [1] ⟨1, ![a]⟩ v 0x00000000#32 h hφ hacc (ix1 p) = ∑ k : Fin b, v (ix2 p k) :=
  (Ideal.multiReduction_add_single v 0x00000000#32 h hφ hacc (ix1 p)).trans
    (Finset.sum_congr rfl fun k _ => congrArg v (funext fun c => Fin.ext (by
      match c with
      | ⟨0, _⟩ => rfl
      | ⟨1, _⟩ => rfl)))

end Cert.AxisFold

end
-- ==== Proof.LibColumn.lean ====
/-
  A vector as a column. A length-`a` vector reshaped to `[a, 1]` reads, at `(i, 0)`, the vector at `i`; and an
  `[a, 1]` column broadcast across `b` columns reads, at `(p, c)`, the column at `(p, 0)`. (The companions for
  a row `[1, a]` are the library's.)
-/
import Idealize.ShloMosaic.Lib.ValueLayout
import Idealize.ShloMosaic.Lib.Pipeline.Value

noncomputable section

namespace Cert.Column

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Column

end
-- ==== Proof.Spec.lean ====
/-
  The function both programs compute, on the extended reals, one output row at a time.

  For a row x[n,:] of the input, the layer's residual row is r[e] = max(Σ_f x[n,f]·w1[e,f] + b1[e], 0) + x[n,e];
  the output row is the residual row centred at its mean and divided by the square root of its variance plus a
  small offset: out[n,e] = (r[e] − mean r) / √(var r + ε), with mean r = (Σ_e r[e]) / N and
  var r = (Σ_e (r[e] − mean r)²) / N, N = 4096 the row length. The two literals (N as a float, and ε) are kept as
  the words both programs print, so neither is ever evaluated.
-/
import Idealize.ShloMosaic.PureOps.Ideal
import Idealize.ShloMosaic.Lib.ValueIdx

noncomputable section

open scoped BigOperators

namespace Cert.FF

open Idealize.ShloMosaic Idealize.ShloMosaic.ValueIdx

/-- The row length, as the float both programs divide by. -/
def cN : EReal := Ideal.ofBits .f32 0x45800000#32
/-- The offset added to the variance, as the float both programs print. -/
def cEps : EReal := Ideal.ofBits .f32 0x38D1B717#32

/-- The mean of a row. -/
def mean (r : Fin 4096 → EReal) : EReal := Ideal.div (∑ e : Fin 4096, r e) cN
/-- The variance of a row: the mean of the squared deviations from its mean. -/
def var (r : Fin 4096 → EReal) : EReal := Ideal.div (∑ e : Fin 4096, (r e - mean r) * (r e - mean r)) cN
/-- A row centred at its mean and divided by the square root of its variance plus the offset. -/
def norm (r : Fin 4096 → EReal) (e : Fin 4096) : EReal := Ideal.div (r e - mean r) (Ideal.sqrt (var r + cEps))

/-- The residual row: the dense layer's row through a rectifier, plus the input row. -/
def resid (xr : Fin 4096 → EReal) (w : Fin 4096 → Fin 4096 → EReal) (b : Fin 4096 → EReal) (e : Fin 4096) : EReal :=
  max ((∑ f : Fin 4096, xr f * w e f) + b e) 0 + xr e

/-- Entry (p, e) of the result, from the three argument arrays. -/
def Grow (x : FVec Ideal ⟨2, ![16384, 4096]⟩ .f32) (w : FVec Ideal ⟨2, ![4096, 4096]⟩ .f32) (b : FVec Ideal ⟨1, ![4096]⟩ .f32)
    (p : Fin 16384) (e : Fin 4096) : EReal :=
  norm (resid (fun f => x (ix2 p f)) (fun e' f => w (ix2 e' f)) (fun e' => b (ix1 e'))) e

/-- The whole result array. -/
def G (x : FVec Ideal ⟨2, ![16384, 4096]⟩ .f32) (w : FVec Ideal ⟨2, ![4096, 4096]⟩ .f32) (b : FVec Ideal ⟨1, ![4096]⟩ .f32) :
    FVec Ideal ⟨2, ![16384, 4096]⟩ .f32 :=
  fun i => Grow x w b (i 0) (i 1)

theorem G_apply (x : FVec Ideal ⟨2, ![16384, 4096]⟩ .f32) (w : FVec Ideal ⟨2, ![4096, 4096]⟩ .f32) (b : FVec Ideal ⟨1, ![4096]⟩ .f32)
    (p : Fin 16384) (e : Fin 4096) : G x w b (ix2 p e) = Grow x w b p e := rfl

end Cert.FF

end
-- ==== Proof.KernelPay3.lean ====
/-
  The program's last stored block, read at one entry, on the extended reals.

  The block accumulated so far, plus the bias row, through a rectifier, plus the input block, is the residual
  block r. Each of its rows is then centred at its mean and divided by the square root of its variance plus a
  small offset: entry (p, c) of the result is (r[p,c] − mean r[p,:]) / √(var r[p,:] + ε).
-/
import proofs.«163720_g75763223101598_feedfinal_213_3_alg».proof.Proof.Gen.KernelIdeal.Skeleton
import proofs.«163720_g75763223101598_feedfinal_213_3_alg».proof.Proof.LibAxisFold
import proofs.«163720_g75763223101598_feedfinal_213_3_alg».proof.Proof.LibColumn
import proofs.«163720_g75763223101598_feedfinal_213_3_alg».proof.Proof.Spec
import Idealize.ShloMosaic.Lib.Pipeline.Value

noncomputable section

open scoped BigOperators

namespace Cert.KernelIdeal.Pay

open Cert.KernelIdeal Cert.KernelIdeal.Gen Idealize.ShloMosaic Idealize.ShloMosaic.ValueIdx

/-! ## The stages of the last block, over an arbitrary residual block `r` -/

/-- The residual block: accumulated block plus bias row, rectified, plus the input block. -/
def resBlock (v16 : Vec Ideal S512x4096 .f32) (v18 : Vec Ideal S1x4096 .f32) (v24 : Vec Ideal S512x4096 .f32) :
    FVec Ideal S512x4096 .f32 :=
  addf (maximumf (addf (shapeCast S512x4096 v16 shapeCasts_S512x4096_S512x4096)
      (broadcastTo S512x4096 (shapeCast S1x4096 v18 shapeCasts_S1x4096_S1x4096) broadcasts_S1x4096_S512x4096))
    (broadcast S512x4096 (Scalar.ofBits .f32 0x00000000#32 : Ideal .f32))) v24

/-- The column of row means. -/
def meanCol (r : FVec Ideal S512x4096 .f32) : FVec Ideal S512x1 .f32 :=
  divf (shapeCast S512x1 (multiReduction .add [1] S512 r 0x00000000#32 reduces_S512x4096_S512 (.inl rfl) rfl)
      shapeCasts_S512_S512x1)
    (broadcast S512x1 (Scalar.ofBits .f32 0x45800000#32 : Ideal .f32))

/-- The block of deviations from the row means. -/
def devBlock (r : FVec Ideal S512x4096 .f32) : FVec Ideal S512x4096 .f32 :=
  subf r (broadcastTo S512x4096 (meanCol r) broadcasts_S512x1_S512x4096)

/-- The column of row variances. -/
def varCol (r : FVec Ideal S512x4096 .f32) : FVec Ideal S512x1 .f32 :=
  divf (shapeCast S512x1
      (multiReduction .add [1] S512 (mulf (devBlock r) (devBlock r)) 0x00000000#32 reduces_S512x4096_S512 (.inl rfl) rfl)
      shapeCasts_S512_S512x1)
    (broadcast S512x1 (Scalar.ofBits .f32 0x45800000#32 : Ideal .f32))

/-- The normalised block. -/
def normBlock (r : FVec Ideal S512x4096 .f32) : FVec Ideal S512x4096 .f32 :=
  divf (devBlock r)
    (broadcastTo S512x4096
      (sqrt (addf (varCol r) (broadcast S512x1 (Scalar.ofBits .f32 0x38D1B717#32 : Ideal .f32))))
      broadcasts_S512x1_S512x4096)

/-- The last stored block is the normalised residual block. -/
theorem pay3_eq (v16 : Vec Ideal S512x4096 .f32) (v18 : Vec Ideal S1x4096 .f32) (v24 : Vec Ideal S512x4096 .f32) :
    k0_pay3 (F := Ideal) v16 v18 v24 = normBlock (resBlock v16 v18 v24) := rfl

/-- The residual block at (p, e). -/
theorem resBlock_apply (v16 : Vec Ideal S512x4096 .f32) (v18 : Vec Ideal S1x4096 .f32) (v24 : Vec Ideal S512x4096 .f32)
    (p : Fin 512) (e : Fin 4096) :
    resBlock v16 v18 v24 (ix2 p e) = max (v16 (ix2 p e) + v18 (ix2 (0 : Fin 1) e)) 0 + v24 (ix2 p e) := by
  have hb : broadcastTo S512x4096 v18 broadcasts_S1x4096_S512x4096 (ix2 p e) = v18 (ix2 (0 : Fin 1) e) :=
    broadcastTo_apply v18 _ (ix2 p e) (ix2 (0 : Fin 1) e) (fun a => by
      match a with
      | ⟨0, _⟩ => rfl
      | ⟨1, _⟩ => rfl)
  unfold resBlock
  rw [shapeCast_self, shapeCast_self]
  show max (v16 (ix2 p e) + broadcastTo S512x4096 v18 broadcasts_S1x4096_S512x4096 (ix2 p e))
      (Ideal.ofBits .f32 0x00000000#32) + v24 (ix2 p e) = _
  rw [hb, Ideal.ofBits_zero_f32]

/-- The mean column at row p. -/
theorem meanCol_apply (r : FVec Ideal S512x4096 .f32) (p : Fin 512) (u : Fin 1) :
    meanCol r (ix2 p u) = Cert.FF.mean (fun e => r (ix2 p e)) := by
  unfold meanCol Cert.FF.mean
  exact congrArg (fun t => Ideal.div t Cert.FF.cN)
    ((Cert.Column.shapeCast_a_a1_apply _ _ p u).trans (Cert.AxisFold.row_sum r _ _ _ p))

/-- The deviation block at (p, e). -/
theorem devBlock_apply (r : FVec Ideal S512x4096 .f32) (p : Fin 512) (e : Fin 4096) :
    devBlock r (ix2 p e) = r (ix2 p e) - Cert.FF.mean (fun e' => r (ix2 p e')) := by
  unfold devBlock
  exact congrArg (fun t => r (ix2 p e) - t)
    ((Cert.Column.broadcastTo_a1_ab_apply _ _ p e).trans (meanCol_apply r p 0))

/-- The variance column at row p. -/
theorem varCol_apply (r : FVec Ideal S512x4096 .f32) (p : Fin 512) (u : Fin 1) :
    varCol r (ix2 p u) = Cert.FF.var (fun e => r (ix2 p e)) := by
  unfold varCol Cert.FF.var
  refine congrArg (fun t => Ideal.div t Cert.FF.cN)
    ((Cert.Column.shapeCast_a_a1_apply _ _ p u).trans ((Cert.AxisFold.row_sum _ _ _ _ p).trans ?_))
  exact Finset.sum_congr rfl fun e _ => congrArg₂ (· * ·) (devBlock_apply r p e) (devBlock_apply r p e)

/-- The normalised block at (p, c). -/
theorem normBlock_apply (r : FVec Ideal S512x4096 .f32) (p : Fin 512) (c : Fin 4096) :
    normBlock r (ix2 p c) = Cert.FF.norm (fun e => r (ix2 p e)) c := by
  unfold normBlock Cert.FF.norm
  exact congrArg₂ Ideal.div (devBlock_apply r p c)
    ((Cert.Column.broadcastTo_a1_ab_apply _ _ p c).trans
      (congrArg (fun t => Ideal.sqrt (t + Cert.FF.cEps)) (varCol_apply r p 0)))

/-- The last stored block at (p, c): the residual row, normalised. -/
theorem pay3_apply (v16 : Vec Ideal S512x4096 .f32) (v18 : Vec Ideal S1x4096 .f32) (v24 : Vec Ideal S512x4096 .f32)
    (p : Fin 512) (c : Fin 4096) :
    k0_pay3 (F := Ideal) v16 v18 v24 (ix2 p c)
      = Cert.FF.norm (fun e : Fin 4096 => max (v16 (ix2 p e) + v18 (ix2 (0 : Fin 1) e)) 0 + v24 (ix2 p e)) c := by
  rw [pay3_eq]
  refine (normBlock_apply _ p c).trans ?_
  exact congrArg (fun f => Cert.FF.norm f c) (funext fun e => resBlock_apply v16 v18 v24 p e)

end Cert.KernelIdeal.Pay

end
-- ==== Proof.KernelBlocks.lean ====
/-
  The blocks the grid's points read and write, as entries of the argument arrays.

  The grid is 32 × 8, walked row by row: point t has row block t / 8 and contraction block t % 8. The input
  array is read in blocks of 512 rows (block t / 8, all 4096 columns); the weights, narrowed on the host
  (the identity on the extended reals), in blocks of 512 columns (all 4096 rows, block t % 8); the bias,
  reshaped on the host from a vector to a one-row matrix, whole. The result is written in blocks of 512 rows
  (block t / 8, all columns).
-/
import proofs.«163720_g75763223101598_feedfinal_213_3_alg».proof.Proof.Gen.KernelIdeal.Frame
import Idealize.ShloMosaic.Lib.Pipeline.Value
import Idealize.ShloMosaic.Lib.ValueIdx
import Idealize.ShloMosaic.Lib.Tactic

noncomputable section

namespace Cert.KernelIdeal.Blocks

open Idealize.ShloMosaic Idealize.ShloMosaic.TcCoe Idealize.SL.Sem Idealize.ShloMosaic.ValueIdx
open Cert.KernelIdeal Cert.KernelIdeal.Gen

variable (m : (ℓ : Loc nD τ sig) → Buf (Elt Ideal) ℓ)

/-! ## The block indices, decided over the grid -/

/-- The block index of each window at point t: row block t / 8 for the input and the result, column block
    t % 8 for the weights, the one block of the bias. -/
theorem index_facts : ∀ t : Fin cfg0.N,
    win0_0.index t (0 : Fin 2) = t.val / 8 ∧ win0_0.index t (1 : Fin 2) = 0
    ∧ win0_1.index t (0 : Fin 2) = 0 ∧ win0_1.index t (1 : Fin 2) = t.val % 8
    ∧ win0_2.index t (0 : Fin 2) = 0 ∧ win0_2.index t (1 : Fin 2) = 0
    ∧ win0_3.index t (0 : Fin 2) = t.val / 8 ∧ win0_3.index t (1 : Fin 2) = 0 :=
  (by decide +kernel : ∀ t : Fin grid0.N, _)

/-- The offsets of the input block's 512-column slice the body loads at point t: column 512 · (t % 8). -/
theorem off1_eq : ∀ t : Fin cfg0.N, k0_off1 (grid0.coords t) = ![0, 512 * (t.val % 8)] :=
  (by decide +kernel : ∀ t : Fin grid0.N, k0_off1 (grid0.coords t) = ![0, 512 * (t.val % 8)])

/-- A row of a row block is a row of the array. -/
theorem row_lt (t : Fin cfg0.N) (p : Fin 512) : 512 * (t.val / 8) + p.val < 16384 := by
  have hN : grid0.N = 256 := N_0
  have ht : t.val < grid0.N := t.isLt
  have hp := p.isLt
  omega

/-- A column of a column block is a column of the array. -/
theorem col_lt (t : Fin cfg0.N) (q : Fin 512) : 512 * (t.val % 8) + q.val < 4096 := by
  have hq := q.isLt
  omega

/-! ## The input blocks -/

/-- The input window's block at point t is rows 512 · (t / 8) … of the input array. -/
theorem iblk0_apply (c : Dev nD) (t : Fin cfg0.N) (p : Fin 512) (f : Fin 4096) :
    (iblk m c 0 t : Vec Ideal S512x4096 .f32) (ix2 p f)
      = (m ((c : Thread nD τ).loc main_arg0) : S16384x4096.Idx → EReal) (ix2 ⟨512 * (t.val / 8) + p.val, row_lt t p⟩ f) := by
  obtain ⟨h0, h1, -⟩ := index_facts t
  unfold iblk
  rw [View.read_apply]
  show V m c main_arg0 _ = _
  rw [V_main_arg0]
  refine congrArg (m ((c : Thread nD τ).loc main_arg0) : S16384x4096.Idx → EReal) (funext fun a => Fin.ext ?_)
  match a with
  | ⟨0, _⟩ => show win0_0.index t 0 * 512 + 1 * p.val = 512 * (t.val / 8) + p.val; rw [h0]; omega
  | ⟨1, _⟩ => show win0_0.index t 1 * 4096 + 1 * f.val = f.val; rw [h1]; omega

/-- The weights as the region finds them: the host's narrowing of the weight array. -/
theorem V_weights (c : Dev nD) :
    @Eq (S4096x4096.Idx → EReal) (V m c main_call0_v0)
      (truncf (F := Ideal) (s := S4096x4096) (φ := .f32) .bf16 (m ((c : Thread nD τ).loc main_arg1)) bitsLt_bf16_f32) := by
  dsimp only [Gen.V, Gen.hostOps0]
  after_results
  rfl

/-- The weight window's block at point t is columns 512 · (t % 8) … of the weight array (narrowing is the
    identity on the extended reals). -/
theorem iblk1_apply (c : Dev nD) (t : Fin cfg0.N) (e : Fin 4096) (q : Fin 512) :
    (iblk m c 1 t : Vec Ideal S4096x512 .bf16) (ix2 e q)
      = (m ((c : Thread nD τ).loc main_arg1) : S4096x4096.Idx → EReal) (ix2 e ⟨512 * (t.val % 8) + q.val, col_lt t q⟩) := by
  obtain ⟨-, -, h0, h1, -⟩ := index_facts t
  unfold iblk
  rw [View.read_apply]
  show (V m c main_call0_v0 : S4096x4096.Idx → EReal) _ = _
  rw [V_weights]
  show (m ((c : Thread nD τ).loc main_arg1) : S4096x4096.Idx → EReal) _ = _
  refine congrArg (m ((c : Thread nD τ).loc main_arg1) : S4096x4096.Idx → EReal) (funext fun a => Fin.ext ?_)
  match a with
  | ⟨0, _⟩ => show win0_1.index t 0 * 4096 + 1 * e.val = e.val; rw [h0]; omega
  | ⟨1, _⟩ => show win0_1.index t 1 * 512 + 1 * q.val = 512 * (t.val % 8) + q.val; rw [h1]; omega

/-- The bias as the region finds it: the host's reshape of the bias vector to one row. -/
theorem V_bias (c : Dev nD) :
    @Eq (S1x4096.Idx → EReal) (V m c main_call0_v1)
      (shapeCast (s := S4096) (α := EReal) S1x4096 (m ((c : Thread nD τ).loc main_arg2)) shapeCasts_S4096_S1x4096) := by
  dsimp only [Gen.V, Gen.hostOps0]
  after_results
  rfl

/-- The bias window's one block, at every point, is the bias vector as a row. -/
theorem iblk2_apply (c : Dev nD) (t : Fin cfg0.N) (u : Fin 1) (e : Fin 4096) :
    (iblk m c 2 t : Vec Ideal S1x4096 .f32) (ix2 u e)
      = (m ((c : Thread nD τ).loc main_arg2) : S4096.Idx → EReal) (ix1 e) := by
  obtain ⟨-, -, -, -, h0, h1, -⟩ := index_facts t
  unfold iblk
  rw [View.read_apply]
  show (V m c main_call0_v1 : S1x4096.Idx → EReal) _ = _
  rw [V_bias]
  refine shapeCast_apply _ _ _ (ix1 e) ?_
  rw [Shape.rowMajor_val_one, Shape.rowMajor_val_two]
  show e.val = (win0_2.index t 0 * 1 + 1 * u.val) * 4096 + (win0_2.index t 1 * 4096 + 1 * e.val)
  have hu : u.val = 0 := by omega
  rw [h0, h1, hu]
  omega

/-! ## The result's blocks -/

/-- An entry of the result window's block at point t, as an index of the result array. -/
theorem blk3_emb (t : Fin cfg0.N) (y : S512x4096.Idx) :
    (((cfg0.win 3).blk t).view.emb y : S16384x4096.Idx) = ix2 ⟨512 * (t.val / 8) + (y 0).val, row_lt t (y 0)⟩ (y 1) := by
  obtain ⟨-, -, -, -, -, -, h0, h1⟩ := index_facts t
  funext a
  apply Fin.ext
  match a with
  | ⟨0, _⟩ => show win0_3.index t 0 * 512 + 1 * (y 0).val = 512 * (t.val / 8) + (y 0).val; rw [h0]; omega
  | ⟨1, _⟩ => show win0_3.index t 1 * 4096 + 1 * (y 1).val = (y 1).val; rw [h1]; omega

/-- An index of the result array is in point t's block iff each coordinate is in the block's range on its axis. -/
theorem mem_blk3_axes (t : Fin cfg0.N) (i : S16384x4096.Idx) :
    i ∈ ((cfg0.win 3).blk t).view.set
      ↔ ∀ a : Fin 2, win0_3.index t a * S512x4096.size a ≤ (i a).val ∧ (i a).val < win0_3.index t a * S512x4096.size a + S512x4096.size a := by
  show i ∈ ((View.whole main_v0).slice (win0_3.rect t)).set ↔ _
  rw [View.set_slice_whole, Rect.mem_set_unit]
  exact Iff.rfl

/-- An index of the result array is in point t's block iff its row is one of the block's 512 rows. -/
theorem mem_blk3 (t : Fin cfg0.N) (i : S16384x4096.Idx) :
    i ∈ ((cfg0.win 3).blk t).view.set ↔ 512 * (t.val / 8) ≤ (i 0).val ∧ (i 0).val < 512 * (t.val / 8) + 512 := by
  obtain ⟨-, -, -, -, -, -, h0, h1⟩ := index_facts t
  rw [mem_blk3_axes]
  constructor
  · intro h
    have b0 : win0_3.index t (0 : Fin 2) * 512 ≤ (i 0).val ∧ (i 0).val < win0_3.index t (0 : Fin 2) * 512 + 512 := h 0
    omega
  · intro h a
    have hi1 : (i 1).val < 4096 := (i 1).isLt
    match a with
    | ⟨0, _⟩ => show win0_3.index t (0 : Fin 2) * 512 ≤ (i 0).val ∧ (i 0).val < win0_3.index t (0 : Fin 2) * 512 + 512; omega
    | ⟨1, _⟩ => show win0_3.index t (1 : Fin 2) * 4096 ≤ (i 1).val ∧ (i 1).val < win0_3.index t (1 : Fin 2) * 4096 + 4096; omega

end Cert.KernelIdeal.Blocks

end
-- ==== Proof.LibLoadAt.lean ====
/-
  A load through a unit-stride rectangle, read at explicit coordinates.

  A rectangle of sizes `(a, b, …)` at offsets `off` inside an array picks, at its own position `(p, q, …)`, the
  array's element whose coordinate on each axis is the offset plus the position. The target coordinates are named by
  the caller and tied to the offsets by one equation per axis, so that offsets a program computes can be read through
  their closed form. Ranks one to three, any extents, any element type; no program needed.
-/
import Idealize.ShloMosaic.Lib.Pipeline.Value
import Idealize.ShloMosaic.Lib.ValueIdx

namespace Cert.LoadAt

open Idealize.ShloMosaic Idealize.ShloMosaic.ValueIdx

variable {Val : EltTy → Type} {e : EltTy}

/-- A window of `a` consecutive entries of a vector. -/
theorem ld_unit1 {A a : ℕ} (X : (⟨1, ![A]⟩ : Shape).Idx → Val e) {off : Fin 1 → ℕ}
    (inb : ∀ i, off i + (![a] : Fin 1 → ℕ) i ≤ (⟨1, ![A]⟩ : Shape).size i)
    (p : Fin a) (P : Fin A) (hP : P.val = off 0 + p.val) :
    View.ld X (Rect.unit (s := ⟨1, ![A]⟩) off ![a] inb) (ix1 p) = X (ix1 P) := by
  show X _ = X _
  congr 1
  funext i
  apply Fin.ext
  match i with
  | ⟨0, _⟩ => show off 0 + 1 * p.val = P.val; rw [Nat.one_mul, hP]

/-- An `a × b` box of a matrix. -/
theorem ld_unit2 {A B a b : ℕ} (X : (⟨2, ![A, B]⟩ : Shape).Idx → Val e) {off : Fin 2 → ℕ}
    (inb : ∀ i, off i + (![a, b] : Fin 2 → ℕ) i ≤ (⟨2, ![A, B]⟩ : Shape).size i)
    (p : Fin a) (q : Fin b) (P : Fin A) (Q : Fin B) (hP : P.val = off 0 + p.val) (hQ : Q.val = off 1 + q.val) :
    View.ld X (Rect.unit (s := ⟨2, ![A, B]⟩) off ![a, b] inb) (ix2 p q) = X (ix2 P Q) := by
  show X _ = X _
  congr 1
  funext i
  apply Fin.ext
  match i with
  | ⟨0, _⟩ => show off 0 + 1 * p.val = P.val; rw [Nat.one_mul, hP]
  | ⟨1, _⟩ => show off 1 + 1 * q.val = Q.val; rw [Nat.one_mul, hQ]

/-- An `a × b × c` box of a rank-3 array. -/
theorem ld_unit3 {A B C a b c : ℕ} (X : (⟨3, ![A, B, C]⟩ : Shape).Idx → Val e) {off : Fin 3 → ℕ}
    (inb : ∀ i, off i + (![a, b, c] : Fin 3 → ℕ) i ≤ (⟨3, ![A, B, C]⟩ : Shape).size i)
    (p : Fin a) (q : Fin b) (r : Fin c) (P : Fin A) (Q : Fin B) (R : Fin C)
    (hP : P.val = off 0 + p.val) (hQ : Q.val = off 1 + q.val) (hR : R.val = off 2 + r.val) :
    View.ld X (Rect.unit (s := ⟨3, ![A, B, C]⟩) off ![a, b, c] inb) (ix3 p q r) = X (ix3 P Q R) := by
  show X _ = X _
  congr 1
  funext i
  apply Fin.ext
  match i with
  | ⟨0, _⟩ => show off 0 + 1 * p.val = P.val; rw [Nat.one_mul, hP]
  | ⟨1, _⟩ => show off 1 + 1 * q.val = Q.val; rw [Nat.one_mul, hQ]
  | ⟨2, _⟩ => show off 2 + 1 * r.val = R.val; rw [Nat.one_mul, hR]

end Cert.LoadAt
-- ==== Proof.LibBlockSum.lean ====
import Mathlib.Algebra.BigOperators.Fin
import Mathlib.Algebra.BigOperators.Intervals

/-!
# Summing a long sequence block by block

A sum over `T * B` consecutive indices can be taken as `T` partial sums of `B`
consecutive terms each, added up one after the other.  In an additive commutative
monoid the result is the same as the single sum over all `T * B` indices:

* `Cert.BlockSum.sum_blocks`: the general statement, for any number `T` of blocks of any
  length `B`;
* `Cert.BlockSum.sum_20x5000`: twenty blocks of five thousand terms, started from zero,
  with the block count written `19 + 1` and the position written `5000 * s + r`, equal
  to the sum over all one hundred thousand indices.

Only commutativity and associativity of the addition are used.
-/

namespace Cert.BlockSum

/-- `T` partial sums of `B` consecutive terms add up to the sum over all `T * B` terms. -/
theorem sum_blocks {β : Type*} [AddCommMonoid β] (T B : ℕ) (f : ℕ → β) :
    ∑ s ∈ Finset.range T, ∑ r : Fin B, f (s * B + r.val) = ∑ n : Fin (T * B), f n.val := by
  rw [Fin.sum_univ_eq_sum_range (fun n => f n) (T * B)]
  induction T with
  | zero => simp
  | succ T ih =>
    -- the last block is the tail of the range of length `T * B + B`
    rw [Finset.sum_range_succ, ih, Nat.succ_mul, Finset.sum_range_add,
      Fin.sum_univ_eq_sum_range (fun r => f (T * B + r)) B]

/-- Twenty blocks of five thousand terms, accumulated from zero, give the sum of all
one hundred thousand terms. -/
theorem sum_20x5000 {β : Type*} [AddCommMonoid β] (g : Fin 100000 → β) (f : ℕ → β)
    (hf : ∀ n : Fin 100000, f n.val = g n) :
    (0 : β) + ∑ s ∈ Finset.range (19 + 1), ∑ r : Fin 5000, f (5000 * s + r.val)
      = ∑ n : Fin 100000, g n := by
  rw [zero_add]
  calc ∑ s ∈ Finset.range (19 + 1), ∑ r : Fin 5000, f (5000 * s + r.val)
      = ∑ s ∈ Finset.range 20, ∑ r : Fin 5000, f (s * 5000 + r.val) := by
        refine Finset.sum_congr rfl fun s _ => Finset.sum_congr rfl fun r _ => ?_
        rw [Nat.mul_comm]
    _ = ∑ n : Fin (20 * 5000), f n.val := sum_blocks 20 5000 f
    _ = ∑ n : Fin 100000, g n := Finset.sum_congr rfl fun n _ => hf n

end Cert.BlockSum
-- ==== Proof.KI.Value.lean ====
/-
  The idealized kernel's result array, on the extended reals, is the function of the specification.

  Fix a row block and one of its 512 rows, global row number row, and a column e. Walking the row block's eight
  grid points k = 0 … 7, the output block's entry (p, e) holds after point k < 7 the partial contraction
  Σ_{j ≤ k} Σ_{q < 512} x[row, 512 j + q] · w1[e, 512 j + q]: point 0 stores the first 512 terms, each later point
  adds its 512 terms to what it found. At k = 7 the eight partial sums are all 4096 terms of Σ_f x[row, f] · w1[e, f]
  (addition of extended reals is commutative and associative), and the point's last store replaces the block by the
  normalised rows of max(that + b1[e], 0) + x[row, e] — entry (row, e) of the specification. The block is written
  back to the result array only after k = 7, the 32 row blocks tile the array, so the array ends as the
  specification's function of the three argument arrays.
-/
import proofs.«163720_g75763223101598_feedfinal_213_3_alg».proof.Proof.KI.Pieces
import proofs.«163720_g75763223101598_feedfinal_213_3_alg».proof.Proof.KI.Body
import proofs.«163720_g75763223101598_feedfinal_213_3_alg».proof.Proof.KernelPay
import proofs.«163720_g75763223101598_feedfinal_213_3_alg».proof.Proof.KernelPay3
import proofs.«163720_g75763223101598_feedfinal_213_3_alg».proof.Proof.KernelBlocks
import proofs.«163720_g75763223101598_feedfinal_213_3_alg».proof.Proof.LibLoadAt
import proofs.«163720_g75763223101598_feedfinal_213_3_alg».proof.Proof.LibBlockSum
import proofs.«163720_g75763223101598_feedfinal_213_3_alg».proof.Proof.Spec
import Idealize.ShloMosaic.Lib.Pipeline.Value

set_option maxRecDepth 16384

noncomputable section

open scoped BigOperators

namespace Cert.KernelIdeal.Val

open Cert.KernelIdeal Cert.KernelIdeal.Gen Cert.KernelIdeal.Hand Cert.KernelIdeal.Pay Cert.KernelIdeal.Blocks
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The three argument arrays as launched. -/
abbrev X (c : Dev nD) : S16384x4096.Idx → EReal := m ((c : Thread nD τ).loc main_arg0)
abbrev W (c : Dev nD) : S4096x4096.Idx → EReal := m ((c : Thread nD τ).loc main_arg1)
abbrev Bv (c : Dev nD) : S4096.Idx → EReal := m ((c : Thread nD τ).loc main_arg2)

/-- Term n of the contraction of input row `row` against weight row `e` (zero past the row's end). -/
def term (c : Dev nD) (row : Fin 16384) (e : Fin 4096) (n : ℕ) : EReal :=
  if h : n < 4096 then X m c (ix2 row ⟨n, h⟩) * W m c (ix2 e ⟨n, h⟩) else 0

theorem term_eq (c : Dev nD) (row : Fin 16384) (e : Fin 4096) (n : ℕ) (N : Fin 4096) (h : N.val = n) :
    term m c row e n = X m c (ix2 row N) * W m c (ix2 e N) := by
  subst h; unfold term; rw [dif_pos N.isLt]

/-- The product of a point's 512×512 slice of the x block with its weight block, at (p, e): the point's 512 terms. -/
theorem part_eq (c : Dev nD) (t : Fin cfg0.N) (p : Fin 512) (e : Fin 4096) (row : Fin 16384)
    (hrow : row.val = 512 * (t.val / 8) + p.val) (k : ℕ) (hk : t.val % 8 = k) :
    ∑ q : Fin 512, xslice (grid0.coords t) (iblk m c 0 t) (ix2 p q) * (iblk m c 1 t : Vec Ideal S4096x512 .bf16) (ix2 e q)
      = ∑ q : Fin 512, term m c row e (k * 512 + q.val) := by
  refine Finset.sum_congr rfl fun q _ => ?_
  have hq := col_lt t q
  have hx : xslice (grid0.coords t) (iblk m c 0 t) (ix2 p q)
      = (iblk m c 0 t : Vec Ideal S512x4096 .f32) (ix2 p ⟨512 * (t.val % 8) + q.val, hq⟩) :=
    Cert.LoadAt.ld_unit2 (iblk m c 0 t : Vec Ideal S512x4096 .f32) (k0_off1_inb (grid0.coords t)) p q p ⟨512 * (t.val % 8) + q.val, hq⟩
      (by rw [off1_eq t]; show p.val = 0 + p.val; omega)
      (by rw [off1_eq t]; rfl)
  rw [hx, iblk0_apply, iblk1_apply]
  have hr : (⟨512 * (t.val / 8) + p.val, row_lt t p⟩ : Fin 16384) = row := Fin.ext hrow.symm
  rw [hr]
  exact (term_eq m c row e _ ⟨512 * (t.val % 8) + q.val, hq⟩ (by show 512 * (t.val % 8) + q.val = k * 512 + q.val; omega)).symm

/-- The partial contraction after blocks 0 … k. -/
def acc (c : Dev nD) (row : Fin 16384) (e : Fin 4096) (k : ℕ) : EReal :=
  ∑ j ∈ Finset.range (k + 1), ∑ q : Fin 512, term m c row e (j * 512 + q.val)

theorem acc_zero (c : Dev nD) (row : Fin 16384) (e : Fin 4096) :
    acc m c row e 0 = ∑ q : Fin 512, term m c row e (0 * 512 + q.val) := by
  unfold acc; rw [Finset.sum_range_one]

theorem acc_succ (c : Dev nD) (row : Fin 16384) (e : Fin 4096) (k : ℕ) :
    acc m c row e (k + 1) = acc m c row e k + ∑ q : Fin 512, term m c row e ((k + 1) * 512 + q.val) := by
  unfold acc; rw [Finset.sum_range_succ]

/-- All eight blocks: the whole contraction. -/
theorem acc_full (c : Dev nD) (row : Fin 16384) (e : Fin 4096) :
    acc m c row e 7 = ∑ f : Fin 4096, X m c (ix2 row f) * W m c (ix2 e f) := by
  unfold acc
  rw [show (7 + 1 : ℕ) = 8 from rfl, Cert.BlockSum.sum_blocks 8 512 (term m c row e)]
  show ∑ n : Fin 4096, term m c row e n.val = _
  exact Finset.sum_congr rfl fun n _ => term_eq m c row e n.val n rfl

/-- What the output block holds after each point: the partial contraction, and after a row block's last point the
    specification's entries. -/
theorem outsAt_val (c : Dev nD) (n : ℕ) : ∀ (h : n < cfg0.N) (p : Fin 512) (e : Fin 4096) (row : Fin 16384)
    (hrow : row.val = 512 * (n / 8) + p.val),
    (outsAt m c n h : Vec Ideal S512x4096 .f32) (ix2 p e)
      = if n % 8 = 7 then Cert.FF.Grow (X m c) (W m c) (Bv m c) row e else acc m c row e (n % 8) := by
  induction n using Nat.strong_induction_on with
  | _ n ih =>
    intro h p e row hrow
    by_cases h0 : n % 8 = 0
    · refine (congrFun (outsAt_A m c ⟨n, h⟩ h0) (ix2 p e)).trans ?_
      rw [outA_eq, pay1_apply, part_eq m c ⟨n, h⟩ p e row hrow 0 h0, if_neg (by omega), h0, acc_zero]
    · have hlt : n - 1 < cfg0.N := Nat.lt_of_le_of_lt (Nat.sub_le _ _) h
      have hrow' : row.val = 512 * ((n - 1) / 8) + p.val := by omega
      obtain ⟨k', hk1, hk2⟩ : ∃ k', (n - 1) % 8 = k' ∧ n % 8 = k' + 1 := ⟨(n - 1) % 8, rfl, by omega⟩
      by_cases h7 : n % 8 = 7
      · refine (congrFun (outsAt_C m c ⟨n, h⟩ h0 h7) (ix2 p e)).trans ?_
        rw [outC_eq, pay3_apply, if_pos h7]
        unfold Cert.FF.Grow
        refine congrArg (fun r => Cert.FF.norm r e) (funext fun e' => ?_)
        beta_reduce
        unfold Cert.FF.resid
        have ih' := ih (n - 1) (by omega) hlt p e' row hrow'
        rw [if_neg (by omega), hk1] at ih'
        rw [pay2_apply, part_eq m c ⟨n, h⟩ p e' row hrow (k' + 1) hk2, ih', ← acc_succ,
          show k' + 1 = 7 from by omega, acc_full, iblk2_apply, iblk0_apply]
        have hr : (⟨512 * ((⟨n, h⟩ : Fin cfg0.N).val / 8) + p.val, row_lt ⟨n, h⟩ p⟩ : Fin 16384) = row := Fin.ext hrow.symm
        rw [hr]
      · refine (congrFun (outsAt_B m c ⟨n, h⟩ h0 h7) (ix2 p e)).trans ?_
        have ih' := ih (n - 1) (by omega) hlt p e row hrow'
        rw [if_neg (by omega), hk1] at ih'
        rw [outB_eq, pay2_apply, part_eq m c ⟨n, h⟩ p e row hrow (k' + 1) hk2, ih', if_neg h7, hk2, acc_succ]

end Cert.KernelIdeal.Val

end
-- ==== Proof.KI.Final.lean ====
/-
  From the output blocks to the result array. The output block is written back to the result array exactly after the
  last of a row block's eight points, when it holds the specification's entries for the row block's 512 rows; the
  32 row blocks tile the array's 16384 rows, so every entry of the array is written once, by its row block's last
  point, and the array ends as the specification's function of the argument arrays.
-/
import proofs.«163720_g75763223101598_feedfinal_213_3_alg».proof.Proof.KI.Value

set_option maxRecDepth 16384

noncomputable section

namespace Cert.KernelIdeal.Val

open Cert.KernelIdeal Cert.KernelIdeal.Gen Cert.KernelIdeal.Hand Cert.KernelIdeal.Blocks
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The specification's function of the argument arrays as launched. -/
abbrev result (c : Dev nD) : S16384x4096.Idx → EReal := Cert.FF.G (X m c) (W m c) (Bv m c)

/-- What a row block's last point writes back is the specification's block. -/
theorem flushed_eq (c : Dev nD) (t : Fin cfg0.N) (hf : (cfg0.win 3).flush t = true) :
    (dats m 0 c).flushed 3 t = ((cfg0.win 3).blk t).view.read (Elt Ideal) (result m c) := by
  have h7 : t.val % 8 = 7 := (flush0_3 t).mp hf
  show (cfg0.win 3).cut (grid0.coords t) ((dats m 0 c).after 3 t) = _
  rw [after_3]
  refine funext fun (y : S512x4096.Idx) => ?_
  show (outsAt m c t.val t.isLt : Vec Ideal S512x4096 .f32) y = result m c (((cfg0.win 3).blk t).view.emb y)
  rw [blk3_emb t y]
  have hv := outsAt_val m c t.val t.isLt (y 0) (y 1) ⟨512 * (t.val / 8) + (y 0).val, row_lt t (y 0)⟩ rfl
  rw [if_pos h7] at hv
  exact (congrArg (outsAt m c t.val t.isLt : Vec Ideal S512x4096 .f32) (eq_ix2 y)).trans hv

/-- Every entry of the result array lies in the block of its row block's last point. -/
theorem final (c : Dev nD) : (dats m 0 c).arrAt 3 cfg0.N = result m c :=
  (dats m 0 c).arrAt_eq_of_cover 3 (result m c) (flushed_eq m c) fun i => by
    have hi : (i 0).val < 16384 := (i 0).isLt
    have hN : cfg0.N = 256 := N_0
    refine ⟨⟨8 * ((i 0).val / 512) + 7, by omega⟩, (flush0_3 _).mpr (by show (8 * ((i 0).val / 512) + 7) % 8 = 7; omega), ?_⟩
    rw [mem_blk3]
    show 512 * ((8 * ((i 0).val / 512) + 7) / 8) ≤ (i 0).val ∧ (i 0).val < 512 * ((8 * ((i 0).val / 512) + 7) / 8) + 512
    omega

/-- The run, read: the result array at the specification's function of the argument arrays, the arguments unchanged. -/
theorem run : θ_run defs (onTc (τ := τ) (main (F := Ideal))) ⟨m, fun _ => 0, ρ⟩ fun r => ∀ c : Dev nD,
      r.2.mem ((c.tc : Thread nD τ).loc main_v0) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨((h c).1 3).trans (final m c),
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c)⟩)
    (run_main m ρ)

end Cert.KernelIdeal.Val

end
-- ==== Proof.RefTerm.lean ====
/-
  What the reference program leaves in its result buffer, as one term of its three argument arrays: the operations
  of the program composed in the order the program applies them.
-/
import proofs.«163720_g75763223101598_feedfinal_213_3_alg».proof.Proof.Gen.ReferenceIdeal
import Idealize.ShloMosaic.PureOps.Ideal

noncomputable section

namespace Cert.RefSide

open Cert.ReferenceIdeal Cert.ReferenceIdeal.Gen Idealize.ShloMosaic

/-! ## The composed term -/

/-- The residual array: the dense layer (product contracting the second axis of both operands, plus the bias spread
    over the rows) through the rectifier, plus the input. -/
def resid (x : FVec Ideal S16384x4096 .f32) (w : FVec Ideal S4096x4096 .f32) (b : FVec Ideal S4096 .f32) : FVec Ideal S16384x4096 .f32 :=
  addf
    (maximumf
      (addf (Host.dotGeneral (F := Ideal) dot_S16384x4096_S4096x4096_S16384x4096_1_1_0_0_n_n none x w)
        (broadcastInDim S16384x4096 ![0, 1] bcast_S1x4096_S16384x4096_0_1 (broadcastInDim S1x4096 ![1] bcast_S4096_S1x4096_1 b)))
      (broadcastInDim S16384x4096 ![] bcast_S_S16384x4096 (constant (F := Ideal) S_ .f32 0x00000000#32)))
    x

/-- The column of row means: each row's sum from zero, divided by the row length. -/
def meanCol (r : FVec Ideal S16384x4096 .f32) : FVec Ideal S16384x1 .f32 :=
  Host.divf (F := Ideal)
    (broadcastInDim S16384x1 ![0] bcast_S16384_S16384x1_0
      (Host.reduceAdd (F := Ideal) r (constant (F := Ideal) S_ .f32 0x00000000#32) reducesTo_S16384x4096_S16384_d1 h_S_))
    (broadcastInDim S16384x1 ![] bcast_S_S16384x1 (constant (F := Ideal) S_ .f32 0x45800000#32))

/-- The divisor of the variance: the row length minus the degrees-of-freedom word converted to a float. -/
def ddofN : FVec Ideal S_ .f32 :=
  subf (constant (F := Ideal) S_ .f32 0x45800000#32) (sitofp .f32 (constantI S_ 32 0#32))

/-- The column of row variances as the reference computes it: the squared deviations from the row mean summed from zero
    and divided by the divisor, selected against a constant where the divisor is positive. -/
def varCol (r : FVec Ideal S16384x4096 .f32) : FVec Ideal S16384x1 .f32 :=
  select (broadcastInDim S16384x1 ![] bcast_S_S16384x1 (cmpf .ogt ddofN (constant (F := Ideal) S_ .f32 0x00000000#32)))
    (Host.divf (F := Ideal)
      (broadcastInDim S16384x1 ![0] bcast_S16384_S16384x1_0
        (Host.reduceAdd (F := Ideal)
          (mulf (subf r (broadcastInDim S16384x4096 ![0, 1] bcast_S16384x1_S16384x4096_0_1 (meanCol r)))
            (subf r (broadcastInDim S16384x4096 ![0, 1] bcast_S16384x1_S16384x4096_0_1 (meanCol r))))
          (constant (F := Ideal) S_ .f32 0x00000000#32) reducesTo_S16384x4096_S16384_d1 h_S_))
      (broadcastInDim S16384x1 ![] bcast_S_S16384x1 ddofN))
    (broadcastInDim S16384x1 ![] bcast_S_S16384x1 (id (constant (F := Ideal) S_ .f32 0x7FC00000#32)))

/-- The result from the residual array: each entry less its row mean, over the root of the squared standard deviation
    plus the offset. -/
def outOf (r : FVec Ideal S16384x4096 .f32) : FVec Ideal S16384x4096 .f32 :=
  Host.divf (F := Ideal)
    (subf r (broadcastInDim S16384x4096 ![0, 1] bcast_S16384x1_S16384x4096_0_1 (meanCol r)))
    (broadcastInDim S16384x4096 ![0, 1] bcast_S16384x1_S16384x4096_0_1
      (Host.sqrt (F := Ideal)
        (addf (mulf (Host.sqrt (F := Ideal) (varCol r)) (Host.sqrt (F := Ideal) (varCol r)))
          (broadcastInDim S16384x1 ![] bcast_S_S16384x1 (constant (F := Ideal) S_ .f32 0x38D1B717#32)))))

/-- What the reference leaves in its result buffer, from the three argument arrays. -/
def T (x : FVec Ideal S16384x4096 .f32) (w : FVec Ideal S4096x4096 .f32) (b : FVec Ideal S4096 .f32) : FVec Ideal S16384x4096 .f32 :=
  outOf (resid x w b)

end Cert.RefSide

end
-- ==== Proof.LibHostWalk.lean ====
/-
  Reading a buffer through a straight line of host operations: each operation's result at its own result buffer is
  its function of its operands' contents, and any other buffer keeps what it held. One pass rewrites a read at the end
  of the line into the composed term of the contents the line started from. A two-piece concatenation is restated
  with its two pieces as plain arguments, so that the pass also rewrites the reads inside the pieces.
-/
import Idealize.ShloMosaic.Lib.StableHlo.Run

set_option maxRecDepth 16384

noncomputable section

namespace Cert.HostWalk

open Idealize.ShloMosaic Idealize.ShloMosaic.StableHlo

/-- The concatenation of two pieces along an axis, the pieces as arguments. -/
def cat2 {α : Type} (t : Shape) (a : Fin t.rank) (s₁ s₂ : Shape) (x₁ : s₁.Idx → α) (x₂ : s₂.Idx → α)
    (h : Shape.Concatenates [s₁, s₂] t a) : t.Idx → α :=
  concatenate t a [⟨s₁, x₁⟩, ⟨s₂, x₂⟩] h

theorem concatenate_pair {α : Type} (t : Shape) (a : Fin t.rank) (s₁ s₂ : Shape) (x₁ : s₁.Idx → α) (x₂ : s₂.Idx → α)
    (h : Shape.Concatenates [s₁, s₂] t a) :
    concatenate t a [⟨s₁, x₁⟩, ⟨s₂, x₂⟩] h = cat2 t a s₁ s₂ x₁ x₂ h := rfl

/-- Reads a buffer through the fold of a line of host operations (and through whatever further rewriting rules are
    given for the boundaries between lines). -/
macro "walk_back" "[" ls:Lean.Parser.Tactic.simpLemma,* "]" : tactic =>
  `(tactic| (simp (disch := decide) only [after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne',
      TRef.nullary, TRef.unary, TRef.binary, TRef.ternary, TRef.quaternary, TRef.reshape, TRef.toBuf, TRef.ofBuf, TRef.of, cast_eq,
      concatenate_pair, $ls,*]))

end Cert.HostWalk

end
-- ==== Proof.RefRun.lean ====
/-
  The reference program as a straight line of its host operations, the outlined functions' operations written at their
  call sites over each call's own buffers, and its run read back: every execution ends with the result buffer at the
  composed term `T` of the three argument arrays, the arguments unchanged.
-/
import proofs.«163720_g75763223101598_feedfinal_213_3_alg».proof.Proof.RefTerm
import proofs.«163720_g75763223101598_feedfinal_213_3_alg».proof.Proof.LibHostWalk
import Idealize.ShloMosaic.Lib.StableHlo.Run

noncomputable section

namespace Cert.RefSide

open Cert.ReferenceIdeal Cert.ReferenceIdeal.Gen Idealize.ShloMosaic Idealize.ShloMosaic.TcCoe Idealize.SL.Sem Idealize.ShloMosaic.StableHlo

/-! ## The program as a list -/

variable {F : FTy → Type} [FloatOps F]

/-- @main's operations in order, the calls unfolded: the rectifier's three into the first call's buffers; the standard
    deviation's twenty-four into the second call's — the variance's twenty, the selection's three, the root. -/
abbrev ops : List (HloOp τ sig (Elt F)) :=
  [ binary main_arg0 main_arg1 main_v0 ((fun l r => Host.dotGeneral dot_S16384x4096_S4096x4096_S16384x4096_1_1_0_0_n_n none l r) : (⟨S16384x4096, .f32⟩ : BufTy).Contents (Elt F) → (⟨S4096x4096, .f32⟩ : BufTy).Contents (Elt F) → (⟨S16384x4096, .f32⟩ : BufTy).Contents (Elt F)),
    unary main_arg2 main_v1 (broadcastInDim S1x4096 ![1] bcast_S4096_S1x4096_1 : (⟨S4096, .f32⟩ : BufTy).Contents (Elt F) → (⟨S1x4096, .f32⟩ : BufTy).Contents (Elt F)),
    unary main_v1 main_v2 (broadcastInDim S16384x4096 ![0, 1] bcast_S1x4096_S16384x4096_0_1 : (⟨S1x4096, .f32⟩ : BufTy).Contents (Elt F) → (⟨S16384x4096, .f32⟩ : BufTy).Contents (Elt F)),
    binary main_v0 main_v2 main_v3 (addf : (⟨S16384x4096, .f32⟩ : BufTy).Contents (Elt F) → (⟨S16384x4096, .f32⟩ : BufTy).Contents (Elt F) → (⟨S16384x4096, .f32⟩ : BufTy).Contents (Elt F)),
    TRef.nullary main_call0.cst (constant S_ .f32 0x00000000#32),
    TRef.unary main_call0.cst main_call0.v0 (broadcastInDim S16384x4096 ![] bcast_S_S16384x4096),
    TRef.binary (.of main_v3) main_call0.v0 main_call0.v1 maximumf,
    binary main_v4 main_arg0 main_v5 (addf : (⟨S16384x4096, .f32⟩ : BufTy).Contents (Elt F) → (⟨S16384x4096, .f32⟩ : BufTy).Contents (Elt F) → (⟨S16384x4096, .f32⟩ : BufTy).Contents (Elt F)),
    nullary main_cst (constant S_ .f32 0x00000000#32),
    binary main_v5 main_cst main_v6 ((fun x v => Host.reduceAdd x v reducesTo_S16384x4096_S16384_d1 h_S_) : (⟨S16384x4096, .f32⟩ : BufTy).Contents (Elt F) → (⟨S_, .f32⟩ : BufTy).Contents (Elt F) → (⟨S16384, .f32⟩ : BufTy).Contents (Elt F)),
    unary main_v6 main_v7 (broadcastInDim S16384x1 ![0] bcast_S16384_S16384x1_0 : (⟨S16384, .f32⟩ : BufTy).Contents (Elt F) → (⟨S16384x1, .f32⟩ : BufTy).Contents (Elt F)),
    nullary main_cst_0 (constant S_ .f32 0x45800000#32),
    unary main_cst_0 main_v8 (broadcastInDim S16384x1 ![] bcast_S_S16384x1 : (⟨S_, .f32⟩ : BufTy).Contents (Elt F) → (⟨S16384x1, .f32⟩ : BufTy).Contents (Elt F)),
    binary main_v7 main_v8 main_v9 (Host.divf : (⟨S16384x1, .f32⟩ : BufTy).Contents (Elt F) → (⟨S16384x1, .f32⟩ : BufTy).Contents (Elt F) → (⟨S16384x1, .f32⟩ : BufTy).Contents (Elt F)),
    nullary main_c (constantI S_ 32 0#32),
    TRef.nullary main_call1.call0.cst (constant S_ .f32 0x00000000#32),
    TRef.binary (.of main_v5) main_call1.call0.cst main_call1.call0.v0 (fun x v => Host.reduceAdd x v reducesTo_S16384x4096_S16384_d1 h_S_),
    TRef.unary main_call1.call0.v0 main_call1.call0.v1 (broadcastInDim S16384x1 ![0] bcast_S16384_S16384x1_0),
    TRef.nullary main_call1.call0.cst_0 (constant S_ .f32 0x45800000#32),
    TRef.unary main_call1.call0.cst_0 main_call1.call0.v2 (broadcastInDim S16384x1 ![] bcast_S_S16384x1),
    TRef.binary main_call1.call0.v1 main_call1.call0.v2 main_call1.call0.v3 Host.divf,
    TRef.unary main_call1.call0.v3 main_call1.call0.v4 (broadcastInDim S16384x4096 ![0, 1] bcast_S16384x1_S16384x4096_0_1),
    TRef.binary (.of main_v5) main_call1.call0.v4 main_call1.call0.v5 subf,
    TRef.binary main_call1.call0.v5 main_call1.call0.v5 main_call1.call0.v6 mulf,
    TRef.unary (.of main_c) main_call1.call0.v7 (sitofp .f32),
    TRef.nullary main_call1.call0.cst_1 (constant S_ .f32 0x45800000#32),
    TRef.binary main_call1.call0.cst_1 main_call1.call0.v7 main_call1.call0.v8 subf,
    TRef.nullary main_call1.call0.cst_2 (constant S_ .f32 0x00000000#32),
    TRef.binary main_call1.call0.v6 main_call1.call0.cst_2 main_call1.call0.v9 (fun x v => Host.reduceAdd x v reducesTo_S16384x4096_S16384_d1 h_S_),
    TRef.unary main_call1.call0.v9 main_call1.call0.v10 (broadcastInDim S16384x1 ![0] bcast_S16384_S16384x1_0),
    TRef.unary main_call1.call0.v8 main_call1.call0.v11 (broadcastInDim S16384x1 ![] bcast_S_S16384x1),
    TRef.binary main_call1.call0.v10 main_call1.call0.v11 main_call1.call0.v12 Host.divf,
    TRef.nullary main_call1.call0.cst_3 (constant S_ .f32 0x00000000#32),
    TRef.binary main_call1.call0.v8 main_call1.call0.cst_3 main_call1.call0.v13 (cmpf .ogt),
    TRef.nullary main_call1.call0.cst_4 (constant S_ .f32 0x7FC00000#32),
    TRef.unary main_call1.call0.cst_4 main_call1.call0.call0.v0 id,
    TRef.unary main_call1.call0.call0.v0 main_call1.call0.call0.v1 (broadcastInDim S16384x1 ![] bcast_S_S16384x1),
    TRef.ternary main_call1.call0.v13 main_call1.call0.v12 main_call1.call0.call0.v1 main_call1.call0.call0.v2 (fun p a b => select (broadcastInDim S16384x1 ![] bcast_S_S16384x1 p) a b),
    TRef.unary main_call1.call0.call0.v2 main_call1.v1 Host.sqrt,
    unary main_v9 main_v11 (broadcastInDim S16384x4096 ![0, 1] bcast_S16384x1_S16384x4096_0_1 : (⟨S16384x1, .f32⟩ : BufTy).Contents (Elt F) → (⟨S16384x4096, .f32⟩ : BufTy).Contents (Elt F)),
    binary main_v5 main_v11 main_v12 (subf : (⟨S16384x4096, .f32⟩ : BufTy).Contents (Elt F) → (⟨S16384x4096, .f32⟩ : BufTy).Contents (Elt F) → (⟨S16384x4096, .f32⟩ : BufTy).Contents (Elt F)),
    binary main_v10 main_v10 main_v13 (mulf : (⟨S16384x1, .f32⟩ : BufTy).Contents (Elt F) → (⟨S16384x1, .f32⟩ : BufTy).Contents (Elt F) → (⟨S16384x1, .f32⟩ : BufTy).Contents (Elt F)),
    nullary main_cst_1 (constant S_ .f32 0x38D1B717#32),
    unary main_cst_1 main_v14 (broadcastInDim S16384x1 ![] bcast_S_S16384x1 : (⟨S_, .f32⟩ : BufTy).Contents (Elt F) → (⟨S16384x1, .f32⟩ : BufTy).Contents (Elt F)),
    binary main_v13 main_v14 main_v15 (addf : (⟨S16384x1, .f32⟩ : BufTy).Contents (Elt F) → (⟨S16384x1, .f32⟩ : BufTy).Contents (Elt F) → (⟨S16384x1, .f32⟩ : BufTy).Contents (Elt F)),
    unary main_v15 main_v16 (Host.sqrt : (⟨S16384x1, .f32⟩ : BufTy).Contents (Elt F) → (⟨S16384x1, .f32⟩ : BufTy).Contents (Elt F)),
    unary main_v16 main_v17 (broadcastInDim S16384x4096 ![0, 1] bcast_S16384x1_S16384x4096_0_1 : (⟨S16384x1, .f32⟩ : BufTy).Contents (Elt F) → (⟨S16384x4096, .f32⟩ : BufTy).Contents (Elt F)),
    binary main_v12 main_v17 main_v18 (Host.divf : (⟨S16384x4096, .f32⟩ : BufTy).Contents (Elt F) → (⟨S16384x4096, .f32⟩ : BufTy).Contents (Elt F) → (⟨S16384x4096, .f32⟩ : BufTy).Contents (Elt F)) ]

set_option maxRecDepth 4096 in
/-- @main is that straight line: the functions' definitions unfolded at their calls, both sides are one chain of steps
    once sequencing is reassociated. -/
theorem main_eq (c : Dev nD) : main (F := F) c = seq ops := by
  simp only [main, fn_relu.body, fn_std.body, fn_var.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨binary_bufs_sub .., unary_bufs_sub .., unary_bufs_sub .., binary_bufs_sub ..,
    nullary_bufs_sub .., unary_bufs_sub .., binary_bufs_sub ..,
    binary_bufs_sub .., nullary_bufs_sub .., binary_bufs_sub .., unary_bufs_sub .., nullary_bufs_sub .., unary_bufs_sub .., binary_bufs_sub ..,
    nullary_bufs_sub ..,
    nullary_bufs_sub .., binary_bufs_sub .., unary_bufs_sub .., nullary_bufs_sub .., unary_bufs_sub .., binary_bufs_sub .., unary_bufs_sub ..,
    binary_bufs_sub .., binary_bufs_sub .., unary_bufs_sub .., nullary_bufs_sub .., binary_bufs_sub .., nullary_bufs_sub .., binary_bufs_sub ..,
    unary_bufs_sub .., unary_bufs_sub .., binary_bufs_sub .., nullary_bufs_sub .., binary_bufs_sub .., nullary_bufs_sub ..,
    unary_bufs_sub .., unary_bufs_sub .., ternary_bufs_sub ..,
    unary_bufs_sub ..,
    unary_bufs_sub .., binary_bufs_sub .., binary_bufs_sub .., nullary_bufs_sub .., unary_bufs_sub .., binary_bufs_sub .., unary_bufs_sub ..,
    unary_bufs_sub .., binary_bufs_sub ..⟩

/-- From any memory with zero counters: every weakly fair execution of @main terminates, and every final state has each
    buffer at the operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-- The fold at the result buffer is the composed term of the three argument buffers' contents. -/
theorem out_eq (V : Valuation τ sig (Elt Ideal)) :
    after (ops (F := Ideal)) V (main_v18 : DevRef τ sig)
      = T (V (main_arg0 : DevRef τ sig)) (V (main_arg1 : DevRef τ sig)) (V (main_arg2 : DevRef τ sig)) := by
  walk_back []
  rfl

theorem arg0_eq (V : Valuation τ sig (Elt Ideal)) :
    after (ops (F := Ideal)) V (main_arg0 : DevRef τ sig) = V (main_arg0 : DevRef τ sig) := by
  walk_back []

theorem arg1_eq (V : Valuation τ sig (Elt Ideal)) :
    after (ops (F := Ideal)) V (main_arg1 : DevRef τ sig) = V (main_arg1 : DevRef τ sig) := by
  walk_back []

theorem arg2_eq (V : Valuation τ sig (Elt Ideal)) :
    after (ops (F := Ideal)) V (main_arg2 : DevRef τ sig) = V (main_arg2 : DevRef τ sig) := by
  walk_back []

/-- Every execution of the reference ends with its result buffer at `T` of the arguments, the arguments unchanged. -/
theorem run_T (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v18)
          = T (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run (defs (F := Ideal)) _ _).mono (fun _ h c => ⟨(h c main_v18).trans (out_eq _), (h c main_arg0).trans (arg0_eq _),
      (h c main_arg1).trans (arg1_eq _), (h c main_arg2).trans (arg2_eq _)⟩)
    (run_main m ρ)

end Cert.RefSide

end
-- ==== Proof.RefAlg.lean ====
/-
  Facts about extended reals used when reading the reference program: the row length as a real, the square of a
  square root, the sign of a variance, and the two facts about the dynamic degrees-of-freedom word.
-/
import proofs.«163720_g75763223101598_feedfinal_213_3_alg».proof.Proof.Spec
import Idealize.ShloMosaic.PureOps.Ideal.Laws

noncomputable section

open scoped BigOperators

namespace Cert.RefSide

open Idealize.ShloMosaic

/-- The word 0x45800000 is the real 4096 = 2^23 · 2^(139 − 127 − 23). -/
theorem cN_eq : Cert.FF.cN = ((4096 : ℝ) : EReal) := by
  unfold Cert.FF.cN
  simp [Ideal.ofBits, Ideal.ieee, -EReal.coe_mul]
  norm_num

theorem cN_pos : (0 : EReal) < Cert.FF.cN := by
  rw [cN_eq]; exact_mod_cast (by norm_num : (0 : ℝ) < 4096)

/-- The square root squared gives back every non-negative extended real: the real case is the real law, and at ⊤
    both the root and the product are ⊤. -/
theorem sqrt_mul_self {v : EReal} (h : 0 ≤ v) : Ideal.sqrt v * Ideal.sqrt v = v := by
  induction v using EReal.rec with
  | bot => exact absurd h (by simp)
  | top => rw [Ideal.sqrt_top]; exact EReal.top_mul_top
  | coe r =>
    have hr : 0 ≤ r := EReal.coe_nonneg.mp h
    rw [Ideal.sqrt_coe, if_neg (not_lt.mpr hr), ← EReal.coe_mul, Real.mul_self_sqrt hr]

/-- A square is non-negative at every extended real (⊥·⊥ = ⊤·⊤ = ⊤). -/
theorem mul_self_nonneg' (y : EReal) : 0 ≤ y * y := by
  induction y using EReal.rec with
  | bot => rw [EReal.bot_mul_bot]; exact le_top
  | top => rw [EReal.top_mul_top]; exact le_top
  | coe r => rw [← EReal.coe_mul]; exact EReal.coe_nonneg.mpr (mul_self_nonneg r)

/-- Dividing by the row length keeps the sign. -/
theorem div_cN_nonneg {s : EReal} (h : 0 ≤ s) : 0 ≤ Ideal.div s Cert.FF.cN := by
  rw [cN_eq, Ideal.div_coe (by norm_num : (4096 : ℝ) ≠ 0)]
  exact mul_nonneg h (EReal.coe_nonneg.mpr (by norm_num))

/-- The variance of every row is non-negative, finite or not. -/
theorem var_nonneg (r : Fin 4096 → EReal) : 0 ≤ Cert.FF.var r := by
  unfold Cert.FF.var
  exact div_cN_nonneg (Finset.sum_nonneg fun e _ => mul_self_nonneg' _)

/-- The signed zero word converts to the real zero, and subtracting it changes nothing. -/
theorem cN_sub_ddof : Cert.FF.cN - ((((0#32 : BitVec 32).toInt : ℝ)) : EReal) = Cert.FF.cN := by
  have : ((0#32 : BitVec 32).toInt) = 0 := by decide
  rw [this]; simp

/-- The comparison 4096 − 0 > 0 holds. -/
theorem cmp_ddof : Ideal.cmp .ogt (Cert.FF.cN - ((((0#32 : BitVec 32).toInt : ℝ)) : EReal)) (Ideal.ofBits .f32 0x00000000#32) = 1#1 := by
  rw [cN_sub_ddof, Ideal.ofBits_zero_f32]
  simp [Ideal.cmp, cN_pos]

end Cert.RefSide

end
-- ==== Proof.LibHostRowFold.lean ====
/-
  The host's reductions along the second axis of a matrix, each read at one row, on the extended reals.

  A `stablehlo.reduce` of an [a, b] array across dimension 1 with a maximum body holds at row p the fold
  of `max` from the initial value over the entries (p, k), k < b; with an add body (the host's float sum)
  it holds the initial value plus the finite sum of the entries (p, k). These are the host-side companions
  of the vector unit's row maximum and row sum. Any extents; depends on no program.
-/
import Idealize.ShloMosaic.Lib.ValueIdx
import Idealize.ShloMosaic.PureOps.Ideal.Laws

noncomputable section

open scoped BigOperators

namespace Cert.HostRowFold

open Idealize.ShloMosaic Idealize.ShloMosaic.ValueIdx

/-- Dropping axis 1 of a rank-2 shape leaves a rank-1 shape, so the host's shape fact is also the vector
    unit's (which asks in addition that a result axis is left). -/
theorem reduces_of_to {a b : ℕ} (h' : (⟨2, ![a, b]⟩ : Shape).ReducesTo [1] ⟨1, ![a]⟩) :
    (⟨2, ![a, b]⟩ : Shape).Reduces [1] ⟨1, ![a]⟩ :=
  let ⟨e, hb⟩ := h'; ⟨e, Nat.one_pos, hb⟩

/-- The host's maximum along row `p`: the fold of `max` from the initial value over the row's entries. -/
theorem row_max {a b : ℕ} (x : FVec Ideal ⟨2, ![a, b]⟩ .f32) (init : FVec Ideal ⟨0, ![]⟩ .f32)
    (h' : (⟨2, ![a, b]⟩ : Shape).ReducesTo [1] ⟨1, ![a]⟩) (hu : 0 < (⟨0, ![]⟩ : Shape).numel) (p : Fin a) :
    Host.reduce FloatOps.maximumf x init h' hu (ix1 p)
      = (Finset.univ : Finset (Fin b)).fold max (init ix0) fun k => x (ix2 p k) := by
  rw [Host.reduce_eq_fold_single FloatOps.maximumf x init h' (reduces_of_to h') hu, eq_ix0 (Shape.Idx.first hu)]
  exact congrArg (fun f => Finset.fold max (init ix0) f (Finset.univ : Finset (Fin b)))
    (funext fun k => congrArg x (funext fun c => Fin.ext (by
      match c with
      | ⟨0, _⟩ => rfl
      | ⟨1, _⟩ => rfl)))

/-- The host's float sum along row `p`: the initial value plus the finite sum of the row's entries. -/
theorem row_sum {a b : ℕ} (x : FVec Ideal ⟨2, ![a, b]⟩ .f32) (init : FVec Ideal ⟨0, ![]⟩ .f32)
    (h' : (⟨2, ![a, b]⟩ : Shape).ReducesTo [1] ⟨1, ![a]⟩) (hu : 0 < (⟨0, ![]⟩ : Shape).numel) (p : Fin a) :
    Host.reduceAdd x init h' hu (ix1 p) = init ix0 + ∑ k : Fin b, x (ix2 p k) := by
  simp only [Host.reduceAdd, Ideal.hostReduceAdd_def]
  rw [Ideal.hostReduceAdd_single h' (reduces_of_to h'), eq_ix0 (Shape.Idx.first hu)]
  refine congrArg (init ix0 + ·) (Finset.sum_congr rfl fun k _ => ?_)
  exact congrArg x (funext fun c => Fin.ext (by
    match c with
    | ⟨0, _⟩ => rfl
    | ⟨1, _⟩ => rfl))

/-- From a zero initial value the host's float sum along row `p` is the finite sum of the row's entries. -/
theorem row_sum_zero {a b : ℕ} (x : FVec Ideal ⟨2, ![a, b]⟩ .f32)
    (h' : (⟨2, ![a, b]⟩ : Shape).ReducesTo [1] ⟨1, ![a]⟩) (hu : 0 < (⟨0, ![]⟩ : Shape).numel) (p : Fin a) :
    Host.reduceAdd x (constant (F := Ideal) ⟨0, ![]⟩ .f32 0x00000000#32) h' hu (ix1 p) = ∑ k : Fin b, x (ix2 p k) :=
  (row_sum x _ h' hu p).trans (by rw [constant_apply, Ideal.ofBits_zero_f32, zero_add])

end Cert.HostRowFold

end
-- ==== Proof.LibBroadcast.lean ====
/-
  BROADCASTS BY DIMENSION MAP, READ AT ONE ENTRY (general lemmas: any extents, any element type).

  * a vector `[E]` broadcast to the column `[E, 1]` along axis 0: the entry at `(e, 0)` is the vector's entry `e`;
  * a column `[N, 1]` broadcast to `[N, C]` along axes (0, 1): the entry at `(n, c)` is the column's entry at row `n`;
  * a vector `[C]` broadcast to the row `[1, C]` along axis 1 and then down `N` rows: the entry at `(n, c)` is the
    vector's entry `c`;
  * a rank-0 value broadcast over any shape: every entry is that value.
  (An operand axis of extent one is read at coordinate zero, so the extents that are not unit axes are assumed `≠ 1`.)
-/
import Idealize.ShloMosaic.Lib.Pipeline.Value
import Idealize.ShloMosaic.Lib.ValueIdx

noncomputable section

namespace Cert.Bcast

open Idealize.ShloMosaic Idealize.ShloMosaic.ValueIdx

/-- A vector as a column. -/
theorem col_apply {α : Type} {E : Nat} (hE : E ≠ 1) (x : (⟨1, ![E]⟩ : Shape).Idx → α)
    (h : (⟨1, ![E]⟩ : Shape).BroadcastsInDim ⟨2, ![E, 1]⟩ ![0]) (e : Fin E) (u : Fin 1) :
    broadcastInDim ⟨2, ![E, 1]⟩ ![0] h x (ix2 e u) = x (ix1 e) :=
  broadcastInDim_apply ![0] h x (ix2 e u) (ix1 e) (fun a => by
    match a with
    | ⟨0, _⟩ =>
      show e.val = if E = 1 then 0 else e.val
      rw [if_neg hE])

/-- A column repeated across `C` columns. -/
theorem rows_of_col_apply {α : Type} {N C : Nat} (hN : N ≠ 1) (x : (⟨2, ![N, 1]⟩ : Shape).Idx → α)
    (h : (⟨2, ![N, 1]⟩ : Shape).BroadcastsInDim ⟨2, ![N, C]⟩ ![0, 1]) (n : Fin N) (c : Fin C) :
    broadcastInDim ⟨2, ![N, C]⟩ ![0, 1] h x (ix2 n c) = x (ix2 n (0 : Fin 1)) :=
  broadcastInDim_apply ![0, 1] h x (ix2 n c) (ix2 n (0 : Fin 1)) (fun a => by
    match a with
    | ⟨0, _⟩ =>
      show n.val = if N = 1 then 0 else n.val
      rw [if_neg hN]
    | ⟨1, _⟩ =>
      show (0 : ℕ) = if (1 : ℕ) = 1 then 0 else c.val
      rw [if_pos rfl])

/-- A bias vector laid out as a row and repeated down `N` rows. -/
theorem bias_rows_apply {α : Type} {N C : Nat} (hC : C ≠ 1) (b : (⟨1, ![C]⟩ : Shape).Idx → α)
    (h1 : (⟨1, ![C]⟩ : Shape).BroadcastsInDim ⟨2, ![1, C]⟩ ![1])
    (h2 : (⟨2, ![1, C]⟩ : Shape).BroadcastsInDim ⟨2, ![N, C]⟩ ![0, 1]) (n : Fin N) (c : Fin C) :
    broadcastInDim ⟨2, ![N, C]⟩ ![0, 1] h2 (broadcastInDim ⟨2, ![1, C]⟩ ![1] h1 b) (ix2 n c) = b (ix1 c) :=
  (broadcastInDim_apply ![0, 1] h2 _ (ix2 n c) (ix2 (0 : Fin 1) c) (fun a => by
    match a with
    | ⟨0, _⟩ =>
      show (0 : ℕ) = if (1 : ℕ) = 1 then 0 else n.val
      rw [if_pos rfl]
    | ⟨1, _⟩ =>
      show c.val = if C = 1 then 0 else c.val
      rw [if_neg hC])).trans
  (broadcastInDim_apply ![1] h1 b (ix2 (0 : Fin 1) c) (ix1 c) (fun a => by
    match a with
    | ⟨0, _⟩ =>
      show c.val = if C = 1 then 0 else c.val
      rw [if_neg hC]))

/-- A rank-0 value broadcast over a shape. -/
theorem scalar_apply {α : Type} {s : Shape} (x : (⟨0, ![]⟩ : Shape).Idx → α)
    (h : (⟨0, ![]⟩ : Shape).BroadcastsInDim s ![]) (i : s.Idx) :
    broadcastInDim s ![] h x i = x ix0 :=
  broadcastInDim_apply (s := ⟨0, ![]⟩) ![] h x i ix0 (fun a => a.elim0)

end Cert.Bcast

end
-- ==== Proof.RefValue.lean ====
/-
  The reference's composed term is the specified function, entry by entry.

  Row p of the residual array is the specified residual row of row p of the input. The column of means at row p is
  the row's mean. The divisor of the variance is the row length (the degrees-of-freedom word is zero), the comparison
  guarding the selection holds, so the column of variances at row p is the row's variance. The reference divides by
  the root of the squared standard deviation plus the offset; the standard deviation is the root of a non-negative
  extended real, so its square is the variance again, and the entry is the specified one.
-/
import proofs.«163720_g75763223101598_feedfinal_213_3_alg».proof.Proof.RefTerm
import proofs.«163720_g75763223101598_feedfinal_213_3_alg».proof.Proof.RefAlg
import proofs.«163720_g75763223101598_feedfinal_213_3_alg».proof.Proof.LibDotNT
import proofs.«163720_g75763223101598_feedfinal_213_3_alg».proof.Proof.LibHostRowFold
import proofs.«163720_g75763223101598_feedfinal_213_3_alg».proof.Proof.LibBroadcast

noncomputable section

open scoped BigOperators

namespace Cert.RefSide

open Cert.ReferenceIdeal Cert.ReferenceIdeal.Gen Idealize.ShloMosaic Idealize.ShloMosaic.ValueIdx

/-- The host's division and square root, read at one entry. -/
theorem hdivf_apply {s : Shape} {φ : FTy} (a b : FVec Ideal s φ) (i : s.Idx) :
    Host.divf (F := Ideal) a b i = Ideal.div (a i) (b i) := rfl
theorem hsqrt_apply {s : Shape} {φ : FTy} (a : FVec Ideal s φ) (i : s.Idx) :
    Host.sqrt (F := Ideal) a i = Ideal.sqrt (a i) := rfl

/-- Row p of the residual array, entry e. -/
theorem resid_apply (x : FVec Ideal S16384x4096 .f32) (w : FVec Ideal S4096x4096 .f32) (b : FVec Ideal S4096 .f32)
    (p : Fin 16384) (e : Fin 4096) :
    resid x w b (ix2 p e) = Cert.FF.resid (fun f => x (ix2 p f)) (fun e' f => w (ix2 e' f)) (fun e' => b (ix1 e')) e := by
  unfold resid Cert.FF.resid
  rw [addf_apply, maximumf_apply, addf_apply,
    Cert.DotNT.dotGeneral_apply ⟨rfl, rfl, rfl, rfl, rfl, rfl⟩,
    Cert.Bcast.bias_rows_apply (by decide), Cert.Bcast.scalar_apply, constant_apply, Ideal.ofBits_zero_f32]

/-- The column of means at row p. -/
theorem meanCol_apply (r : FVec Ideal S16384x4096 .f32) (p : Fin 16384) (u : Fin 1) :
    meanCol r (ix2 p u) = Cert.FF.mean (fun e => r (ix2 p e)) := by
  unfold meanCol Cert.FF.mean
  rw [hdivf_apply, Cert.Bcast.col_apply (by decide), Cert.HostRowFold.row_sum_zero, Cert.Bcast.scalar_apply, constant_apply]
  rfl

/-- The divisor of the variance is the row length. -/
theorem ddofN_apply (i : S_.Idx) : ddofN i = Cert.FF.cN := by
  unfold ddofN
  rw [subf_apply, constant_apply, sitofp_apply]
  exact cN_sub_ddof

/-- The row length is above zero, as the comparison reads it. -/
theorem cmp_cN : Ideal.cmp .ogt Cert.FF.cN (Ideal.ofBits .f32 0x00000000#32) = 1#1 := by
  rw [Ideal.ofBits_zero_f32]
  simp [Ideal.cmp, cN_pos]

/-- The column of variances at row p. -/
theorem varCol_apply (r : FVec Ideal S16384x4096 .f32) (p : Fin 16384) (u : Fin 1) :
    varCol r (ix2 p u) = Cert.FF.var (fun e => r (ix2 p e)) := by
  unfold varCol
  rw [select_apply, Cert.Bcast.scalar_apply, cmpf_apply, ddofN_apply, constant_apply]
  rw [show FloatOps.cmpf (F := Ideal) .ogt Cert.FF.cN (Ideal.ofBits .f32 0x00000000#32) = 1#1 from cmp_cN, select_one]
  rw [hdivf_apply, Cert.Bcast.col_apply (by decide), Cert.HostRowFold.row_sum_zero, Cert.Bcast.scalar_apply, ddofN_apply]
  unfold Cert.FF.var
  refine congrArg (fun s => Ideal.div s Cert.FF.cN) (Finset.sum_congr rfl fun e _ => ?_)
  rw [mulf_apply, subf_apply, Cert.Bcast.rows_of_col_apply (by decide), meanCol_apply]

/-- An entry of the result from the residual array. -/
theorem outOf_apply (r : FVec Ideal S16384x4096 .f32) (p : Fin 16384) (e : Fin 4096) :
    outOf r (ix2 p e) = Cert.FF.norm (fun e => r (ix2 p e)) e := by
  unfold outOf Cert.FF.norm
  rw [hdivf_apply, subf_apply, Cert.Bcast.rows_of_col_apply (by decide), meanCol_apply, Cert.Bcast.rows_of_col_apply (by decide),
    hsqrt_apply, addf_apply, mulf_apply, hsqrt_apply, varCol_apply, sqrt_mul_self (var_nonneg _), Cert.Bcast.scalar_apply,
    constant_apply]
  rfl

/-- The reference's composed term is the specified array. -/
theorem T_eq_G (x : FVec Ideal S16384x4096 .f32) (w : FVec Ideal S4096x4096 .f32) (b : FVec Ideal S4096 .f32) :
    T x w b = Cert.FF.G x w b := by
  funext i
  obtain ⟨p, e, rfl⟩ : ∃ (p : Fin 16384) (e : Fin 4096), i = ix2 p e := ⟨i 0, i 1, eq_ix2 i⟩
  rw [Cert.FF.G_apply]
  unfold T Cert.FF.Grow
  rw [outOf_apply]
  exact congrArg (fun row => Cert.FF.norm row e) (funext fun e' => resid_apply x w b p e')

end Cert.RefSide

end
-- ==== Proof.RefSide.lean ====
/-
  The reference's run, stated over the specified function: every execution of the reference program ends with its
  result buffer holding the specified array of the three argument arrays, and the arguments unchanged.
-/
import proofs.«163720_g75763223101598_feedfinal_213_3_alg».proof.Proof.RefRun
import proofs.«163720_g75763223101598_feedfinal_213_3_alg».proof.Proof.RefValue

noncomputable section

open Idealize.ShloMosaic Idealize.ShloMosaic.TcCoe Idealize.SL.Sem

theorem Cert.RefSide.run (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, ρ⟩
      (fun r => ∀ c : Dev Cert.ReferenceIdeal.nD,
        r.2.mem ((c.tc : Thread Cert.ReferenceIdeal.nD Cert.ReferenceIdeal.τ).loc Cert.ReferenceIdeal.main_v18)
            = Cert.FF.G (m ((c.tc : Thread _ _).loc Cert.ReferenceIdeal.main_arg0))
                (m ((c.tc : Thread _ _).loc Cert.ReferenceIdeal.main_arg1))
                (m ((c.tc : Thread _ _).loc Cert.ReferenceIdeal.main_arg2))
        ∧ r.2.mem ((c.tc : Thread _ _).loc Cert.ReferenceIdeal.main_arg0) = m ((c.tc : Thread _ _).loc Cert.ReferenceIdeal.main_arg0)
        ∧ r.2.mem ((c.tc : Thread _ _).loc Cert.ReferenceIdeal.main_arg1) = m ((c.tc : Thread _ _).loc Cert.ReferenceIdeal.main_arg1)
        ∧ r.2.mem ((c.tc : Thread _ _).loc Cert.ReferenceIdeal.main_arg2) = m ((c.tc : Thread _ _).loc Cert.ReferenceIdeal.main_arg2)) :=
  (θ_run (Cert.ReferenceIdeal.defs (F := Ideal)) _ _).mono
    (fun _ h c => ⟨((h c).1).trans (Cert.RefSide.T_eq_G _ _ _), (h c).2.1, (h c).2.2.1, (h c).2.2.2⟩)
    (Cert.RefSide.run_T m ρ)

end
-- ==== Proof.lean ====
/-
  The certificate of a fused feed-forward block against its array-language reference, on the extended reals.

  Both programs compute, row by row, r = max(x·w1ᵀ + b1, 0) + x and then (r − mean r) / √(var r + ε). The kernel
  walks a 32 × 8 grid: for each block of 512 rows it accumulates the product over eight blocks of 512 contraction
  terms in its output block, and at the eighth adds the bias, rectifies, adds the input rows and normalises them in
  place; the output block is written back to the result only then. The reference computes the whole product at
  once, and takes the variance as the square of its own square root before adding ε.

  * The three frames: each program terminates on every weakly fair execution, faults nowhere and leaves its three
    argument arrays unchanged. For the two kernels this is the pipeline's run from a body triple per kind of grid
    point (start the accumulator, add to it, finish the row block); for the reference it is its straight-line run.
  * The kernel's idealisation rewrote nothing, so there is nothing to preserve.
  * The two idealised programs end with equal results: the eight partial sums are the whole contraction because
    addition of extended reals is commutative and associative; the reference's √v · √v is v because a variance is
    non-negative (a sum of squares divided by a positive number) — on every extended real, so the precondition is
    never opened; and the reference's divisor N − 0 is N. Everything else is the same operation on both sides.
-/
import proofs.«163720_g75763223101598_feedfinal_213_3_alg».proof.Defs
import proofs.«163720_g75763223101598_feedfinal_213_3_alg».proof.Proof.Gen.Kernel
import proofs.«163720_g75763223101598_feedfinal_213_3_alg».proof.Proof.Gen.KernelIdeal
import proofs.«163720_g75763223101598_feedfinal_213_3_alg».proof.Proof.Gen.ReferenceIdeal
import proofs.«163720_g75763223101598_feedfinal_213_3_alg».proof.Proof.Gen.Pre_finite_inputs
import proofs.«163720_g75763223101598_feedfinal_213_3_alg».proof.Proof.K.Body
import proofs.«163720_g75763223101598_feedfinal_213_3_alg».proof.Proof.KI.Body
import proofs.«163720_g75763223101598_feedfinal_213_3_alg».proof.Proof.KI.Final
import proofs.«163720_g75763223101598_feedfinal_213_3_alg».proof.Proof.RefSide

noncomputable section

namespace Cert.Proof

open Idealize.ShloMosaic Idealize.SL.Sem

theorem frame_k : Cert.frame_Kernel := fun m ρ _ => Cert.Kernel.Hand.frame m ρ

theorem frame_ki : Cert.frame_KernelIdeal := fun m ρ _ => Cert.KernelIdeal.Hand.frame m ρ

theorem frame_ri : Cert.frame_ReferenceIdeal := fun m ρ _ =>
  (θ_run Cert.ReferenceIdeal.defs _ _).mono (fun _ h c => (h c).2) (Cert.RefSide.run m ρ)

theorem preserves : Cert.preserves_Kernel_KernelIdeal := trivial

/-- Both idealised programs end with the specification's function of the (agreeing) argument arrays. -/
theorem algebraic : Cert.algebraic_KernelIdeal_ReferenceIdeal := by
  intro m ρ m' ρ' _ hagree
  refine ⟨_, Cert.KernelIdeal.Val.run m ρ, ?_⟩
  refine (θ_run Cert.ReferenceIdeal.defs _ _).mono (fun _ h c => ⟨(h c).1.trans ?_, (h c).2⟩)
    (Cert.RefSide.run m' ρ')
  rw [(hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
